-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩
abbrev S128x64 : Shape := ⟨2, ![128, 64]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 60
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S100000x128, .f32⟩
  | .hbm, ⟨42, _⟩ => ⟨S128x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S128x64, .f32⟩
  | .hbm, ⟨58, _⟩ => ⟨S1x64, .f32⟩
  | .hbm, ⟨59, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S128x64, .f32⟩
  | .hbm, ⟨83, _⟩ => ⟨S100000x64, .f32⟩
  | .hbm, ⟨84, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelNamed.lean ====
/-
  THE IDEALIZED KERNEL'S RUN WITH ITS RESULT NAMED.

  Every weakly fair execution of the kernel's program terminates without a fault, leaves the arguments as launched, and
  leaves in the result array the contents W6 of the last segment boundary: the program is six segments (three stretches
  of host operations, three regions), the buffer contents at each boundary are a fold from the launch memory, and the
  final state is read against the last boundary's contents at every unscoped buffer — at the result as at the arguments.
-/
import proofs.«120253_j59219009077768_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the last boundary's contents, the arguments as launched. -/
theorem run_named : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.LibSegment.lean ====
/-
  ROW GATHER AND ACCUMULATING SCATTER READ AT AN INDEX.

  A graph layer gathers rows of an array [N, C] by a column of E start indices and adds E update rows
  into an array [N, C] at a column of E destination indices (x[idx] and a segment sum); the same for a vector of length N.
  Read at one index: the gather is the operand's row at the start index, read signed and clamped into [0, N - 1];
  the accumulating scatter is the operand's element plus the sum of the update rows whose destination index, read signed,
  is that row (an index outside [0, N - 1] names no row and its update is dropped).
-/
import Idealize.ShloMosaic.Lib.ValueIdx
import Idealize.ShloMosaic.PureOps.Ideal.Laws

noncomputable section

open scoped BigOperators

namespace Cert.Segment

open Idealize.ShloMosaic Idealize.ShloMosaic.ValueIdx

/-- A start index read signed and clamped into [0, N-1]. -/
def clampRow (N : ℕ) (hN : 0 < N) {w : ℕ} (b : BitVec w) : Fin N := ⟨min b.toInt.toNat (N - 1), by omega⟩

/-- The clamped row's value: the minimum of the signed reading (negative read as 0) and N - 1. -/
theorem clampRow_val (N : ℕ) (hN : 0 < N) {w : ℕ} (b : BitVec w) :
    (clampRow N hN b).val = min b.toInt.toNat (N - 1) := rfl

/-- In a rank-2 shape axis 1 is not axis 0 (a closed fact, used to decide membership in the literal axis lists). -/
theorem one_ne_zero_fin2 : (1 : Fin 2) ≠ 0 := by decide

/-- Axis 1 is not in the list holding axis 0 alone. -/
theorem one_not_mem_zero : (1 : Fin 2) ∉ [(0 : Fin 2)] := fun h => one_ne_zero_fin2 (List.mem_singleton.mp h)

/-! ## Gather of rows of an [N, C] array -/

/-- The dimension numbers of a row gather: operand [N, C], start indices [E, 1], result [E, C]; the result's axis 1 is
    the offset axis (a whole row of C), the operand's axis 0 is collapsed and is the one the start index names. -/
abbrev gatherRowsDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the operand at row idx[e, 0], read signed and clamped into [0, N - 1], column c. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (clampRow N hN (idx (ix2 e (0 : Fin 1)))) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have h1 : (1 : Fin 2) ∈ (gatherRowsDims N E C wf).sKept :=
      (GatherDims.mem_sKept _ _).mpr ⟨one_not_mem_zero, List.not_mem_nil⟩
    unfold GatherDims.start GatherDims.offCoord
    rw [dif_neg (show ¬ (1 : Fin 2) ∈ (gatherRowsDims N E C wf).startIndexMap from one_not_mem_zero), dif_pos h1]
    simp only [Nat.add_zero, Nat.zero_add]
    rfl

/-! ## Gather of elements of a vector of length N -/

/-- The dimension numbers of an element gather: operand [N], start indices [E, 1], result [E]; no offset axis, the
    operand's one axis is collapsed and is the one the start index names. -/
abbrev gatherVecDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT e: the operand at idx[e, 0], read signed and clamped into [0, N - 1]. -/
theorem gather_vec_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter's result index, in general -/

/-- An update lands at operand index i exactly when, on every axis, its start (read signed) plus its window coordinate is
    i's coordinate: the sum is then inside the operand, and outside it the update is dropped. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hi := Option.some.inj heq
      have ha := congrArg (fun f => ((f a).val : ℤ)) hi
      simp only at ha
      rw [← ha, Int.toNat_of_nonneg (h a).1]
    · intro hall
      congr 1
      funext a
      refine Fin.ext ?_
      have := hall a
      show (d.start j idx a + (d.window j a : ℤ)).toNat = (i a).val
      omega
  · rename_i h
    constructor
    · intro heq; cases heq
    · intro hall
      exfalso
      apply h
      intro a
      have := hall a
      have hlt := (i a).isLt
      constructor <;> omega

/-! ## Accumulating scatter of rows into an [N, C] array -/

/-- The dimension numbers of a row scatter: operand [N, C], scatter indices [E, 1], updates [E, C]; the updates' axis 1
    is the window axis (a whole row of C), the operand's axis 0 is inserted and is the one the scatter index names. -/
abbrev scatterRowsDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update (e, c') reads its scatter index at [e, 0]. -/
theorem scatterRows_siIdx {N E C : ℕ} (wf : ScatterDims.WF ⟨2, ![N, C]⟩ ⟨2, ![E, 1]⟩ ⟨2, ![E, C]⟩ [1] [0] [0] 1)
    (e : Fin E) (c' : Fin C) (k : Fin (scatterRowsDims N E C wf).scatterDimsToOperandDims.length) :
    (scatterRowsDims N E C wf).siIdx (ix2 e c') k = ix2 e (0 : Fin 1) := by
  funext b; refine Fin.ext ?_
  match b with
  | ⟨0, _⟩ => rfl
  | ⟨1, _⟩ =>
    have hk : k.val < 1 := k.isLt
    show k.val = 0
    omega

/-- On the row axis the window starts at the scatter index read signed … -/
theorem scatterRows_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl),
    scatterRows_siIdx]

/-- … and on the column axis at 0. -/
theorem scatterRows_start1 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 1 = 0 := by
  unfold ScatterDims.start
  rw [dif_neg (show ¬ (1 : Fin 2) ∈ (scatterRowsDims N E C wf).scatterDimsToOperandDims from one_not_mem_zero)]

/-- The operand's kept axes of a row scatter: axis 1 is kept, axis 0 (inserted) is not. -/
theorem scatterRows_mem_sKept {N E C : ℕ} (wf : ScatterDims.WF ⟨2, ![N, C]⟩ ⟨2, ![E, 1]⟩ ⟨2, ![E, C]⟩ [1] [0] [0] 1)
    (a : Fin 2) : a ∈ (scatterRowsDims N E C wf).sKept ↔ a ∉ [(0 : Fin 2)] := by
  simp [ScatterDims.sKept, Shape.kept, List.mem_filter, List.mem_finRange]

/-- The window coordinate on the row axis is 0 … -/
theorem scatterRows_window0 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 0 = 0 := by
  unfold ScatterDims.window
  rw [dif_neg (fun h => ((scatterRows_mem_sKept wf 0).mp h) (List.mem_singleton.mpr rfl))]

/-- … and on the column axis the update's column. -/
theorem scatterRows_window1 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 1 = c'.val := by
  unfold ScatterDims.window
  rw [dif_pos ((scatterRows_mem_sKept wf 1).mpr one_not_mem_zero)]
  rfl

/-- WHERE A ROW UPDATE LANDS: update (e, c') lands at (p, c) exactly when its scatter index idx[e, 0], read signed, is
    the row p and its column is c. -/
theorem scatterRows_resultIdx {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (scatterRowsDims N E C wf).resultIdx? (ix2 e c') idx = some (ix2 p c) ↔
      ((idx (ix2 e (0 : Fin 1))).toInt = (p.val : ℤ) ∧ c' = c) := by
  rw [resultIdx?_eq_some_iff]
  constructor
  · intro hall
    have h0 := hall 0
    have h1 := hall 1
    rw [scatterRows_start0, scatterRows_window0] at h0
    rw [scatterRows_start1, scatterRows_window1] at h1
    refine ⟨?_, Fin.ext ?_⟩
    · have : (((ix2 p c : (⟨2, ![N, C]⟩ : Shape).Idx) 0).val : ℤ) = (p.val : ℤ) := rfl
      omega
    · have : (((ix2 p c : (⟨2, ![N, C]⟩ : Shape).Idx) 1).val : ℤ) = (c.val : ℤ) := rfl
      omega
  · rintro ⟨hp, rfl⟩ a
    match a with
    | ⟨0, _⟩ =>
      show (scatterRowsDims N E C wf).start (ix2 e c') idx 0 + ((scatterRowsDims N E C wf).window (ix2 e c') 0 : ℤ) = (p.val : ℤ)
      rw [scatterRows_start0, scatterRows_window0, hp]; simp
    | ⟨1, _⟩ =>
      show (scatterRowsDims N E C wf).start (ix2 e c') idx 1 + ((scatterRowsDims N E C wf).window (ix2 e c') 1 : ℤ) = (c'.val : ℤ)
      rw [scatterRows_start1, scatterRows_window1]; simp

/-- THE ACCUMULATING ROW SCATTER READ AT (p, c): the operand's element plus the sum, over the updates e whose scatter
    index read signed is the row p, of update e's column c. -/
theorem scatterAdd_rows_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (p : Fin N) (c : Fin C) :
    Ideal.hostScatterAdd (scatterRowsDims N E C wf) x idx upd (ix2 p c) =
      x (ix2 p c) + ∑ e ∈ Finset.univ.filter (fun e : Fin E => (idx (ix2 e (0 : Fin 1))).toInt = (p.val : ℤ)), upd (ix2 e c) := by
  unfold Ideal.hostScatterAdd
  congr 1
  refine Finset.sum_nbij' (fun j : (⟨2, ![E, C]⟩ : Shape).Idx => (j 0 : Fin E)) (fun e : Fin E => ix2 e c) ?_ ?_ ?_ ?_ ?_
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    exact Finset.mem_filter.mpr ⟨Finset.mem_univ _, h.1⟩
  · intro e he
    exact Finset.mem_filter.mpr ⟨Finset.mem_univ _,
      (scatterRows_resultIdx wf idx e c p c).mpr ⟨(Finset.mem_filter.mp he).2, rfl⟩⟩
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show ix2 e c = ix2 e c'
    rw [h.2]
  · intro e _; rfl
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show upd (ix2 e c') = upd (ix2 e c)
    rw [h.2]

/-! ## Accumulating scatter of elements into a vector of length N -/

/-- The dimension numbers of an element scatter: operand [N], scatter indices [E, 1], updates [E]; no window axis, the
    operand's one axis is inserted and is the one the scatter index names. -/
abbrev scatterVecDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e reads its scatter index at [e, 0]. -/
theorem scatterVec_siIdx {N E : ℕ} (wf : ScatterDims.WF ⟨1, ![N]⟩ ⟨2, ![E, 1]⟩ ⟨1, ![E]⟩ [] [0] [0] 1)
    (e : Fin E) (k : Fin (scatterVecDims N E wf).scatterDimsToOperandDims.length) :
    (scatterVecDims N E wf).siIdx (ix1 e) k = ix2 e (0 : Fin 1) := by
  funext b; refine Fin.ext ?_
  match b with
  | ⟨0, _⟩ => rfl
  | ⟨1, _⟩ =>
    have hk : k.val < 1 := k.isLt
    show k.val = 0
    omega

/-- The window starts at the scatter index read signed … -/
theorem scatterVec_start0 {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl),
    scatterVec_siIdx]

/-- … and its window coordinate is 0: the one operand axis is inserted, not kept. -/
theorem scatterVec_window0 {N E : ℕ} (wf : ScatterDims.WF ⟨1, ![N]⟩ ⟨2, ![E, 1]⟩ ⟨1, ![E]⟩ [] [0] [0] 1)
    (e : Fin E) : (scatterVecDims N E wf).window (ix1 e) 0 = 0 := by
  unfold ScatterDims.window
  rw [dif_neg (fun h => by
    have h' : (0 : Fin 1) ∉ [(0 : Fin 1)] := by
      simpa [ScatterDims.sKept, Shape.kept, List.mem_filter, List.mem_finRange] using h
    exact h' (List.mem_singleton.mpr rfl))]

/-- WHERE AN ELEMENT UPDATE LANDS: update e lands at p exactly when its scatter index idx[e, 0], read signed, is p. -/
theorem scatterVec_resultIdx {N E w : ℕ} (wf : ScatterDims.WF ⟨1, ![N]⟩ ⟨2, ![E, 1]⟩ ⟨1, ![E]⟩ [] [0] [0] 1)
    (idx : IVec ⟨2, ![E, 1]⟩ w) (e : Fin E) (p : Fin N) :
    (scatterVecDims N E wf).resultIdx? (ix1 e) idx = some (ix1 p) ↔ (idx (ix2 e (0 : Fin 1))).toInt = (p.val : ℤ) := by
  rw [resultIdx?_eq_some_iff]
  constructor
  · intro hall
    have h0 := hall 0
    rw [scatterVec_start0, scatterVec_window0] at h0
    have : (((ix1 p : (⟨1, ![N]⟩ : Shape).Idx) 0).val : ℤ) = (p.val : ℤ) := rfl
    omega
  · intro hp a
    obtain rfl : a = 0 := Subsingleton.elim _ _
    show (scatterVecDims N E wf).start (ix1 e) idx 0 + ((scatterVecDims N E wf).window (ix1 e) 0 : ℤ) = (p.val : ℤ)
    rw [scatterVec_start0, scatterVec_window0, hp]; simp

/-- THE ACCUMULATING ELEMENT SCATTER READ AT p: the operand's element plus the sum of the updates e whose scatter index
    read signed is p. -/
theorem scatterAdd_vec_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (p : Fin N) :
    Ideal.hostScatterAdd (scatterVecDims N E wf) x idx upd (ix1 p) =
      x (ix1 p) + ∑ e ∈ Finset.univ.filter (fun e : Fin E => (idx (ix2 e (0 : Fin 1))).toInt = (p.val : ℤ)), upd (ix1 e) := by
  unfold Ideal.hostScatterAdd
  congr 1
  refine Finset.sum_nbij' (fun j : (⟨1, ![E]⟩ : Shape).Idx => (j 0 : Fin E)) (fun e : Fin E => ix1 e) ?_ ?_ ?_ ?_ ?_
  · intro j hj
    obtain ⟨e, rfl⟩ : ∃ (e : Fin E), j = ix1 e := ⟨j 0, eq_ix1 j⟩
    exact Finset.mem_filter.mpr ⟨Finset.mem_univ _, (scatterVec_resultIdx wf idx e p).mp (Finset.mem_filter.mp hj).2⟩
  · intro e he
    exact Finset.mem_filter.mpr ⟨Finset.mem_univ _, (scatterVec_resultIdx wf idx e p).mpr (Finset.mem_filter.mp he).2⟩
  · intro j _
    obtain ⟨e, rfl⟩ : ∃ (e : Fin E), j = ix1 e := ⟨j 0, eq_ix1 j⟩
    rfl
  · intro e _; rfl
  · intro j _
    obtain ⟨e, rfl⟩ : ∃ (e : Fin E), j = ix1 e := ⟨j 0, eq_ix1 j⟩
    rfl

/-! ## A start index already in range -/

/-- jax wraps a negative start index (b <s 0 ? b + N : b) before a gather; a start index whose signed value is already
    a row p < N is unchanged by the wrap and by the clamp. -/
theorem clampRow_wrap {N : ℕ} (hN : 0 < N) (b : BitVec 32) (p : Fin N) (h : b.toInt = (p.val : ℤ)) :
    clampRow N hN (Scalar.select (IntOp.cmpi .slt b 0#32) (IntOp.addi b (BitVec.ofNat 32 N)) b) = p := by
  have hslt : b.slt 0#32 = false := by
    rw [BitVec.slt]
    have h0 : (0#32 : BitVec 32).toInt = 0 := by decide
    rw [h0, h]
    exact decide_eq_false (by omega)
  have hc : IntOp.cmpi .slt b 0#32 = 0#1 := by
    show BitVec.ofBool (b.slt 0#32) = 0#1
    rw [hslt]; rfl
  rw [hc, select_zero]
  refine Fin.ext ?_
  rw [clampRow_val, h]
  have := p.isLt
  simp only [Int.toNat_natCast]
  omega

end Cert.Segment

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«120253_j59219009077768_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«120253_j59219009077768_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«120253_j59219009077768_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibGraphSpec.lean ====
/-
  TWO GRAPH LAYERS WITH MEAN AGGREGATION, as whole-array functions over the extended reals.

  A graph has N nodes and E edges; edge e goes from node src e to node dst e.  The edge list is an integer array of
  two rows.  A start index that is negative counts from the end, and the row a gather reads is the index clamped into
  the array (srcRow); an update is added to the row its index names, and dropped when the index names no row (inEdges
  p is the set of edges whose destination reads p).  The aggregate of an array x at node p is the sum of the rows
  x (srcRow e) over the edges e into p (aggr); the degree of p is the number of those edges, and at least one (degv).

  One layer sends the features h to  (mean aggregate of h) · Wl + b + h · Wr.  It is written here in two shapes.  The
  first (layerR, over meanAgg) divides the aggregate by the degree and adds the bias before the second product.  The
  second (layer1K, layer2K) multiplies by the reciprocal of the degree, kept as a column, takes the bias as a one-row
  array and adds it last; and its second layer aggregates the projected rows h · Wl instead of projecting the
  aggregate.  kernelOut and refOut are the two-layer networks in the two shapes, the first layer rectified.
-/
import proofs.«120253_j59219009077768_2_alg».proof.Proof.LibSegment
import proofs.«120253_j59219009077768_2_alg».proof.Proof.LibRegionRows

noncomputable section

open scoped BigOperators

namespace Cert.Graph

open Idealize.ShloMosaic Idealize.ShloMosaic.ValueIdx
open Cert.KernelIdeal.RegionValue (prodArr prodArr_apply)

/-- Row 0 of the edge list: the sources. -/
def srcOf {E : ℕ} (ei : IVec ⟨2, ![2, E]⟩ 32) : IVec ⟨1, ![E]⟩ 32 := fun i => ei (ix2 (0 : Fin 2) (i 0))

/-- Row 1 of the edge list: the destinations. -/
def dstOf {E : ℕ} (ei : IVec ⟨2, ![2, E]⟩ 32) : IVec ⟨1, ![E]⟩ 32 := fun i => ei (ix2 (1 : Fin 2) (i 0))

/-- A negative index counts from the end of an axis of extent N. -/
def wrapIdx (N : ℕ) (b : BitVec 32) : BitVec 32 :=
  Scalar.select (IntOp.cmpi .slt b 0#32) (IntOp.addi b (BitVec.ofNat 32 N)) b

/-- The row of an N-row array that edge e gathers. -/
def srcRow (N : ℕ) (hN : 0 < N) {E : ℕ} (src : IVec ⟨1, ![E]⟩ 32) (e : Fin E) : Fin N :=
  Cert.Segment.clampRow N hN (wrapIdx N (src (ix1 e)))

/-- The edges whose update lands on row p. -/
def inEdges (N : ℕ) {E : ℕ} (dst : IVec ⟨1, ![E]⟩ 32) (p : Fin N) : Finset (Fin E) :=
  Finset.univ.filter fun e => (dst (ix1 e)).toInt = (p.val : ℤ)

variable {N E : ℕ}

/-- The summed rows of x over the edges into each node. -/
def aggr {C : ℕ} (g : Fin E → Fin N) (S : Fin N → Finset (Fin E)) (x : (⟨2, ![N, C]⟩ : Shape).Idx → EReal) :
    (⟨2, ![N, C]⟩ : Shape).Idx → EReal := fun i => 0 + ∑ e ∈ S (i 0), x (ix2 (g e) (i 1))

theorem aggr_apply {C : ℕ} (g : Fin E → Fin N) (S : Fin N → Finset (Fin E)) (x : (⟨2, ![N, C]⟩ : Shape).Idx → EReal)
    (p : Fin N) (c : Fin C) : aggr g S x (ix2 p c) = 0 + ∑ e ∈ S p, x (ix2 (g e) c) := rfl

/-- The number of edges into node p, and at least one. -/
def degv (S : Fin N → Finset (Fin E)) (p : Fin N) : EReal := max (0 + ∑ _e ∈ S p, (1 : EReal)) 1

/-- The reciprocal degrees as a column. -/
def invCol (S : Fin N → Finset (Fin E)) : (⟨2, ![N, 1]⟩ : Shape).Idx → EReal := fun i => Ideal.div 1 (degv S (i 0))

theorem invCol_apply (S : Fin N → Finset (Fin E)) (p : Fin N) (u : Fin 1) : invCol S (ix2 p u) = Ideal.div 1 (degv S p) := rfl

/-- The aggregate divided by the degree, row by row. -/
def meanAgg {C : ℕ} (g : Fin E → Fin N) (S : Fin N → Finset (Fin E)) (x : (⟨2, ![N, C]⟩ : Shape).Idx → EReal) :
    (⟨2, ![N, C]⟩ : Shape).Idx → EReal := fun i => Ideal.div (aggr g S x i) (degv S (i 0))

theorem meanAgg_apply {C : ℕ} (g : Fin E → Fin N) (S : Fin N → Finset (Fin E)) (x : (⟨2, ![N, C]⟩ : Shape).Idx → EReal)
    (p : Fin N) (c : Fin C) : meanAgg g S x (ix2 p c) = Ideal.div (aggr g S x (ix2 p c)) (degv S p) := rfl

/-- A matrix transposed. -/
def tr {a b : ℕ} (w : (⟨2, ![a, b]⟩ : Shape).Idx → EReal) : (⟨2, ![b, a]⟩ : Shape).Idx → EReal :=
  fun i => w (ix2 (i 1) (i 0))

theorem tr_apply {a b : ℕ} (w : (⟨2, ![a, b]⟩ : Shape).Idx → EReal) (p : Fin b) (q : Fin a) :
    tr w (ix2 p q) = w (ix2 q p) := rfl

/-- A vector as a one-row array. -/
def asRow {M : ℕ} (b : (⟨1, ![M]⟩ : Shape).Idx → EReal) : (⟨2, ![1, M]⟩ : Shape).Idx → EReal := fun i => b (ix1 (i 1))

theorem asRow_apply {M : ℕ} (b : (⟨1, ![M]⟩ : Shape).Idx → EReal) (u : Fin 1) (c : Fin M) :
    asRow b (ix2 u c) = b (ix1 c) := rfl

/-- Every row of ms scaled by that row's entry of the column inv. -/
def scaleRows {R K : ℕ} (ms : (⟨2, ![R, K]⟩ : Shape).Idx → EReal) (inv : (⟨2, ![R, 1]⟩ : Shape).Idx → EReal) :
    (⟨2, ![R, K]⟩ : Shape).Idx → EReal := fun i => ms i * inv (ix2 (i 0) (0 : Fin 1))

theorem scaleRows_apply {R K : ℕ} (ms : (⟨2, ![R, K]⟩ : Shape).Idx → EReal) (inv : (⟨2, ![R, 1]⟩ : Shape).Idx → EReal)
    (p : Fin R) (k : Fin K) : scaleRows ms inv (ix2 p k) = ms (ix2 p k) * inv (ix2 p (0 : Fin 1)) := rfl

/-- The first layer, second shape: max (((ms ⊙ inv) · wl + x · wr) + b) 0, the bias a one-row array. -/
def layer1K {R K M : ℕ} (ms : (⟨2, ![R, K]⟩ : Shape).Idx → EReal) (inv : (⟨2, ![R, 1]⟩ : Shape).Idx → EReal)
    (x : (⟨2, ![R, K]⟩ : Shape).Idx → EReal) (wl wr : (⟨2, ![K, M]⟩ : Shape).Idx → EReal)
    (b : (⟨2, ![1, M]⟩ : Shape).Idx → EReal) : (⟨2, ![R, M]⟩ : Shape).Idx → EReal :=
  fun i => max ((prodArr (scaleRows ms inv) wl i + prodArr x wr i) + b (ix2 (0 : Fin 1) (i 1))) 0

theorem layer1K_apply {R K M : ℕ} (ms : (⟨2, ![R, K]⟩ : Shape).Idx → EReal) (inv : (⟨2, ![R, 1]⟩ : Shape).Idx → EReal)
    (x : (⟨2, ![R, K]⟩ : Shape).Idx → EReal) (wl wr : (⟨2, ![K, M]⟩ : Shape).Idx → EReal)
    (b : (⟨2, ![1, M]⟩ : Shape).Idx → EReal) (p : Fin R) (c : Fin M) :
    layer1K ms inv x wl wr b (ix2 p c)
      = max (((∑ k : Fin K, (ms (ix2 p k) * inv (ix2 p (0 : Fin 1))) * wl (ix2 k c)) + ∑ k : Fin K, x (ix2 p k) * wr (ix2 k c))
          + b (ix2 (0 : Fin 1) c)) 0 := rfl

/-- The second layer, second shape: ((ms ⊙ inv) + h · wr) + b, the aggregate ms already projected. -/
def layer2K {R K M : ℕ} (ms : (⟨2, ![R, M]⟩ : Shape).Idx → EReal) (inv : (⟨2, ![R, 1]⟩ : Shape).Idx → EReal)
    (h : (⟨2, ![R, K]⟩ : Shape).Idx → EReal) (wr : (⟨2, ![K, M]⟩ : Shape).Idx → EReal)
    (b : (⟨2, ![1, M]⟩ : Shape).Idx → EReal) : (⟨2, ![R, M]⟩ : Shape).Idx → EReal :=
  fun i => (ms i * inv (ix2 (i 0) (0 : Fin 1)) + prodArr h wr i) + b (ix2 (0 : Fin 1) (i 1))

theorem layer2K_apply {R K M : ℕ} (ms : (⟨2, ![R, M]⟩ : Shape).Idx → EReal) (inv : (⟨2, ![R, 1]⟩ : Shape).Idx → EReal)
    (h : (⟨2, ![R, K]⟩ : Shape).Idx → EReal) (wr : (⟨2, ![K, M]⟩ : Shape).Idx → EReal)
    (b : (⟨2, ![1, M]⟩ : Shape).Idx → EReal) (p : Fin R) (c : Fin M) :
    layer2K ms inv h wr b (ix2 p c)
      = (ms (ix2 p c) * inv (ix2 p (0 : Fin 1)) + ∑ k : Fin K, h (ix2 p k) * wr (ix2 k c)) + b (ix2 (0 : Fin 1) c) := rfl

/-- A layer, first shape: (ma · wl + b) + x · wr, the bias a vector. -/
def layerR {R K M : ℕ} (ma x : (⟨2, ![R, K]⟩ : Shape).Idx → EReal) (wl wr : (⟨2, ![K, M]⟩ : Shape).Idx → EReal)
    (b : (⟨1, ![M]⟩ : Shape).Idx → EReal) : (⟨2, ![R, M]⟩ : Shape).Idx → EReal :=
  fun i => (prodArr ma wl i + b (ix1 (i 1))) + prodArr x wr i

theorem layerR_apply {R K M : ℕ} (ma x : (⟨2, ![R, K]⟩ : Shape).Idx → EReal) (wl wr : (⟨2, ![K, M]⟩ : Shape).Idx → EReal)
    (b : (⟨1, ![M]⟩ : Shape).Idx → EReal) (p : Fin R) (c : Fin M) :
    layerR ma x wl wr b (ix2 p c)
      = ((∑ k : Fin K, ma (ix2 p k) * wl (ix2 k c)) + b (ix1 c)) + ∑ k : Fin K, x (ix2 p k) * wr (ix2 k c) := rfl

/-- The rectifier, entry by entry. -/
def reluArr {s : Shape} (y : s.Idx → EReal) : s.Idx → EReal := fun i => max (y i) 0

/-- The two layers in the second shape. -/
def kernelOut {K H O : ℕ} (g : Fin E → Fin N) (S : Fin N → Finset (Fin E)) (x : (⟨2, ![N, K]⟩ : Shape).Idx → EReal)
    (wl1 wr1 : (⟨2, ![K, H]⟩ : Shape).Idx → EReal) (b1 : (⟨1, ![H]⟩ : Shape).Idx → EReal)
    (wl2 wr2 : (⟨2, ![H, O]⟩ : Shape).Idx → EReal) (b2 : (⟨1, ![O]⟩ : Shape).Idx → EReal) :
    (⟨2, ![N, O]⟩ : Shape).Idx → EReal :=
  layer2K (aggr g S (prodArr (layer1K (aggr g S x) (invCol S) x wl1 wr1 (asRow b1)) wl2)) (invCol S)
    (layer1K (aggr g S x) (invCol S) x wl1 wr1 (asRow b1)) wr2 (asRow b2)

/-- The two layers in the first shape. -/
def refOut {K H O : ℕ} (g : Fin E → Fin N) (S : Fin N → Finset (Fin E)) (x : (⟨2, ![N, K]⟩ : Shape).Idx → EReal)
    (wl1 wr1 : (⟨2, ![K, H]⟩ : Shape).Idx → EReal) (b1 : (⟨1, ![H]⟩ : Shape).Idx → EReal)
    (wl2 wr2 : (⟨2, ![H, O]⟩ : Shape).Idx → EReal) (b2 : (⟨1, ![O]⟩ : Shape).Idx → EReal) :
    (⟨2, ![N, O]⟩ : Shape).Idx → EReal :=
  layerR (meanAgg g S (reluArr (layerR (meanAgg g S x) x wl1 wr1 b1))) (reluArr (layerR (meanAgg g S x) x wl1 wr1 b1)) wl2 wr2 b2

end Cert.Graph

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibGraphHost.lean ====
/-
  THE HOST'S GATHER, SEGMENT SUM, DEGREE COUNT AND TRANSPOSE, as the whole-array functions of the specification.

  Generic in every extent and stated at the ideal values.  A row gather through start indices that were first wrapped
  (a negative index counts from the end) followed by an accumulating row scatter into zeros is the aggregate aggr: at
  (p, c) the zero plus the sum, over the edges whose destination reads p, of the gathered row's column c.  The
  accumulating scatter of ones into zeros, then the maximum with one, is the degree degv.  A transpose with the
  permutation [1, 0] is tr.  Sums are compared term by term; nothing is assumed finite.
-/
import proofs.«120253_j59219009077768_2_alg».proof.Proof.LibGraphSpec
import Idealize.ShloMosaic.Lib.Pipeline.Value
import Idealize.ShloMosaic.PureOps.Ideal.Laws
import proofs.«120253_j59219009077768_2_alg».proof.Proof.LibNormSum

noncomputable section

open scoped BigOperators

namespace Cert.Graph

open Idealize.ShloMosaic Idealize.ShloMosaic.ValueIdx Cert.Segment

/-- A vector of E entries broadcast to an E-by-1 column, read at (e, 0). -/
theorem col_bcast_apply {α : Type} {E : ℕ} (he : (⟨1, ![E]⟩ : Shape).BroadcastsInDim ⟨2, ![E, 1]⟩ ![0])
    (v : (⟨1, ![E]⟩ : Shape).Idx → α) (e : Fin E) :
    broadcastInDim ⟨2, ![E, 1]⟩ ![0] he v (ix2 e (0 : Fin 1)) = v (ix1 e) :=
  broadcastInDim_apply _ he v (ix2 e (0 : Fin 1)) (ix1 e) (fun a => by
    match a with
    | ⟨0, _⟩ =>
      show e.val = if E = 1 then 0 else e.val
      split
      · have := e.isLt; omega
      · rfl)

/-- A scalar broadcast to any shape, read anywhere. -/
theorem scalar_bcast_apply {α : Type} {s : Shape} (hs : (⟨0, ![]⟩ : Shape).BroadcastsInDim s ![])
    (v : (⟨0, ![]⟩ : Shape).Idx → α) (i : s.Idx) : broadcastInDim s ![] hs v i = v ix0 :=
  broadcastInDim_apply _ hs v i ix0 (fun a => a.elim0)

/-- The wrapped start indices read at an edge. -/
theorem wrapped_apply {N E : ℕ} (hs : (⟨0, ![]⟩ : Shape).BroadcastsInDim ⟨1, ![E]⟩ ![]) (src : IVec ⟨1, ![E]⟩ 32) (e : Fin E) :
    select (cmpi .slt src (broadcastInDim ⟨1, ![E]⟩ ![] hs (constantI ⟨0, ![]⟩ 32 0#32)))
        (addi src (broadcastInDim ⟨1, ![E]⟩ ![] hs (constantI ⟨0, ![]⟩ 32 (BitVec.ofNat 32 N)))) src (ix1 e)
      = wrapIdx N (src (ix1 e)) := by
  show Scalar.select (IntOp.cmpi .slt (src (ix1 e)) (broadcastInDim ⟨1, ![E]⟩ ![] hs (constantI ⟨0, ![]⟩ 32 0#32) (ix1 e)))
      (IntOp.addi (src (ix1 e)) (broadcastInDim ⟨1, ![E]⟩ ![] hs (constantI ⟨0, ![]⟩ 32 (BitVec.ofNat 32 N)) (ix1 e))) (src (ix1 e)) = _
  rw [scalar_bcast_apply, scalar_bcast_apply]
  rfl

/-- GATHER THEN SEGMENT SUM: the rows of X at the wrapped sources, added into zeros at the destinations, is aggr. -/
theorem aggr_host {N E C : ℕ} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (he : (⟨1, ![E]⟩ : Shape).BroadcastsInDim ⟨2, ![E, 1]⟩ ![0])
    (hs : (⟨0, ![]⟩ : Shape).BroadcastsInDim ⟨1, ![E]⟩ ![])
    (X : FVec Ideal ⟨2, ![N, C]⟩ .f32) (src dst : IVec ⟨1, ![E]⟩ 32) :
    Host.scatterAdd (scatterRowsDims N E C swf)
        (broadcastInDim ⟨2, ![N, C]⟩ ![] hz (constant (F := Ideal) ⟨0, ![]⟩ .f32 0x00000000#32))
        (broadcastInDim ⟨2, ![E, 1]⟩ ![0] he dst)
        (Host.gather (gatherRowsDims N E C gwf) X (broadcastInDim ⟨2, ![E, 1]⟩ ![0] he
          (select (cmpi .slt src (broadcastInDim ⟨1, ![E]⟩ ![] hs (constantI ⟨0, ![]⟩ 32 0#32)))
            (addi src (broadcastInDim ⟨1, ![E]⟩ ![] hs (constantI ⟨0, ![]⟩ 32 (BitVec.ofNat 32 N)))) src)))
      = aggr (srcRow N hN src) (inEdges N dst) X := by
  funext i
  obtain ⟨p, c, rfl⟩ : ∃ (p : Fin N) (c : Fin C), i = ix2 p c := ⟨i 0, i 1, eq_ix2 i⟩
  rw [aggr_apply]
  show Ideal.hostScatterAdd (scatterRowsDims N E C swf) _ _ _ (ix2 p c) = _
  rw [scatterAdd_rows_apply swf, scalar_bcast_apply, constant_apply, Ideal.ofBits_zero_f32]
  congr 1
  have hf : (Finset.univ.filter fun e : Fin E =>
        (broadcastInDim ⟨2, ![E, 1]⟩ ![0] he dst (ix2 e (0 : Fin 1))).toInt = (p.val : ℤ)) = inEdges N dst p := by
    unfold inEdges
    exact Finset.filter_congr fun e _ => by rw [col_bcast_apply]
  rw [hf]
  refine Finset.sum_congr rfl fun e _ => ?_
  rw [gather_rows_apply hN gwf, col_bcast_apply, wrapped_apply]
  rfl

/-- THE DEGREE: ones added into zeros at the destinations, and at least one. -/
theorem degv_host {N E : ℕ}
    (swf : ScatterDims.WF ⟨1, ![N]⟩ ⟨2, ![E, 1]⟩ ⟨1, ![E]⟩ [] [0] [0] 1)
    (hz : (⟨0, ![]⟩ : Shape).BroadcastsInDim ⟨1, ![N]⟩ ![])
    (he : (⟨1, ![E]⟩ : Shape).BroadcastsInDim ⟨2, ![E, 1]⟩ ![0])
    (hs : (⟨0, ![]⟩ : Shape).BroadcastsInDim ⟨1, ![E]⟩ ![])
    (dst : IVec ⟨1, ![E]⟩ 32) (p : Fin N) :
    maximumf (Host.scatterAdd (scatterVecDims N E swf)
        (broadcastInDim ⟨1, ![N]⟩ ![] hz (constant (F := Ideal) ⟨0, ![]⟩ .f32 0x00000000#32))
        (broadcastInDim ⟨2, ![E, 1]⟩ ![0] he dst)
        (broadcastInDim ⟨1, ![E]⟩ ![] hs (constant (F := Ideal) ⟨0, ![]⟩ .f32 0x3F800000#32)))
      (broadcastInDim ⟨1, ![N]⟩ ![] hz (constant (F := Ideal) ⟨0, ![]⟩ .f32 0x3F800000#32)) (ix1 p)
      = degv (inEdges N dst) p := by
  show max (Ideal.hostScatterAdd (scatterVecDims N E swf) _ _ _ (ix1 p))
      (broadcastInDim ⟨1, ![N]⟩ ![] hz (constant (F := Ideal) ⟨0, ![]⟩ .f32 0x3F800000#32) (ix1 p)) = _
  rw [scatterAdd_vec_apply swf, scalar_bcast_apply, scalar_bcast_apply, constant_apply, constant_apply,
    Ideal.ofBits_zero_f32, Cert.NormSum.one_word]
  unfold degv
  have hf : (Finset.univ.filter fun e : Fin E =>
        (broadcastInDim ⟨2, ![E, 1]⟩ ![0] he dst (ix2 e (0 : Fin 1))).toInt = (p.val : ℤ)) = inEdges N dst p := by
    unfold inEdges
    exact Finset.filter_congr fun e _ => by rw [col_bcast_apply]
  rw [hf]
  congr 2
  refine Finset.sum_congr rfl fun e _ => ?_
  rw [scalar_bcast_apply, constant_apply, Cert.NormSum.one_word]

/-- A matrix transposed by the permutation [1, 0]. -/
theorem tr_host {a b : ℕ} (h : (⟨2, ![a, b]⟩ : Shape).Transposes [1, 0] ⟨2, ![b, a]⟩)
    (w : (⟨2, ![a, b]⟩ : Shape).Idx → EReal) : transpose ⟨2, ![b, a]⟩ [1, 0] w h = tr w := by
  funext i
  obtain ⟨p, q, rfl⟩ : ∃ (p : Fin b) (q : Fin a), i = ix2 p q := ⟨i 0, i 1, eq_ix2 i⟩
  rw [tr_apply]
  exact transpose_apply [1, 0] w h (ix2 p q) (ix2 q p) (fun bb => by
    match bb with
    | ⟨0, _⟩ => rfl
    | ⟨1, _⟩ => rfl)

end Cert.Graph

end
-- ==== Proof.KernelGlue.lean ====
/-
  WHAT THE KERNEL'S BUFFERS HOLD AT EACH SEGMENT BOUNDARY, outside the regions' own outputs.

  The kernel's program is three stretches of host operations around three regions.  Before the first region the host
  cuts the edge list into sources and destinations, counts the degrees and keeps their reciprocals as a column, gathers
  and sums the node features (the first aggregate), transposes the first layer's weights and makes its bias a one-row
  array.  Between the regions it transposes the remaining weights, gathers and sums the projected rows (the second
  aggregate) and makes the second bias a one-row array.  Each such buffer is read here as a whole-array function of the
  specification; every other buffer a region or a stretch does not write is carried unchanged from boundary to boundary.
-/
import proofs.«120253_j59219009077768_2_alg».proof.Proof.Gen.KernelIdeal.Frame
import proofs.«120253_j59219009077768_2_alg».proof.Proof.LibGraphHost

set_option maxRecDepth 16384

noncomputable section

open scoped BigOperators

namespace Cert.KernelIdeal.Glue

open Cert.KernelIdeal Cert.KernelIdeal.Gen Cert.Graph
open Idealize.ShloMosaic Idealize.ShloMosaic.TcCoe Idealize.ShloMosaic.ValueIdx Idealize.SL.Sem
open Cert.KernelIdeal.RegionValue (prodArr prodArr_apply)

/-- The graph has a node. -/
theorem hN : 0 < 100000 := by norm_num

/-! ## Layout pieces at the program's extents -/

/-- Row 0 of the edge list, cut out and flattened, is the sources. -/
theorem srcs_eq (ei : IVec S2x1600000 32) :
    shapeCast S1600000 (extractStridedSlice S1x1600000 ![0, 0] ei slices_S2x1600000_S1x1600000_0_0) shapeCasts_S1x1600000_S1600000
      = srcOf ei := by
  funext i
  obtain ⟨e, rfl⟩ : ∃ e : Fin 1600000, i = ix1 e := ⟨i 0, eq_ix1 i⟩
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] ei slices_S2x1600000_S1x1600000_0_0 (ix2 (0 : Fin 1) e) (ix2 (0 : Fin 2) e) (fun a => by
    match a with
    | ⟨0, _⟩ => rfl
    | ⟨1, _⟩ => show e.val = 0 + e.val; omega)

/-- Row 1 of the edge list, cut out and flattened, is the destinations. -/
theorem dsts_eq (ei : IVec S2x1600000 32) :
    shapeCast S1600000 (extractStridedSlice S1x1600000 ![1, 0] ei slices_S2x1600000_S1x1600000_1_0) shapeCasts_S1x1600000_S1600000
      = dstOf ei := by
  funext i
  obtain ⟨e, rfl⟩ : ∃ e : Fin 1600000, i = ix1 e := ⟨i 0, eq_ix1 i⟩
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei slices_S2x1600000_S1x1600000_1_0 (ix2 (0 : Fin 1) e) (ix2 (1 : Fin 2) e) (fun a => by
    match a with
    | ⟨0, _⟩ => rfl
    | ⟨1, _⟩ => show e.val = 0 + e.val; omega)

/-- A vector of 128 entries reshaped to one row. -/
theorem row128_eq (b : (S128.Idx → EReal)) : shapeCast S1x128 b shapeCasts_S128_S1x128 = asRow b := by
  funext i
  obtain ⟨u, k, rfl⟩ : ∃ (u : Fin 1) (k : Fin 128), i = ix2 u k := ⟨i 0, i 1, eq_ix2 i⟩
  rw [asRow_apply]
  exact shapeCast_apply b shapeCasts_S128_S1x128 (ix2 u k) (ix1 k)
    (by rewrite [Shape.rowMajor_val_two, Shape.rowMajor_val_one]; show k.val = u.val * 128 + k.val; have := u.isLt; omega)

/-- A vector of 64 entries reshaped to one row. -/
theorem row64_eq (b : (S64.Idx → EReal)) : shapeCast S1x64 b shapeCasts_S64_S1x64 = asRow b := by
  funext i
  obtain ⟨u, k, rfl⟩ : ∃ (u : Fin 1) (k : Fin 64), i = ix2 u k := ⟨i 0, i 1, eq_ix2 i⟩
  rw [asRow_apply]
  exact shapeCast_apply b shapeCasts_S64_S1x64 (ix2 u k) (ix1 k)
    (by rewrite [Shape.rowMajor_val_two, Shape.rowMajor_val_one]; show k.val = u.val * 64 + k.val; have := u.isLt; omega)

/-- The host's quotient of two arrays, read at an index. -/
theorem hostDivf_apply {s : Shape} (x y : FVec Ideal s .f32) (i : s.Idx) : Host.divf x y i = Ideal.div (x i) (y i) := rfl

/-- The reciprocal degrees, computed as a vector and reshaped to a column. -/
theorem invcol_eq (dst : IVec S1600000 32) :
    shapeCast S100000x1 (Host.divf (broadcastInDim S100000 ![] bcast_S_S100000 (constant (F := Ideal) S_ .f32 0x3F800000#32))
        (maximumf (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))) shapeCasts_S100000_S100000x1
      = invCol (inEdges 100000 dst) := by
  funext i
  obtain ⟨p, u, rfl⟩ : ∃ (p : Fin 100000) (u : Fin 1), i = ix2 p u := ⟨i 0, i 1, eq_ix2 i⟩
  rw [invCol_apply, shapeCast_apply _ shapeCasts_S100000_S100000x1 (ix2 p u) (ix1 p)
    (by rewrite [Shape.rowMajor_val_two, Shape.rowMajor_val_one]; show p.val = p.val * 1 + u.val; have := u.isLt; omega)]
  have h1 : (broadcastInDim S100000 ![] bcast_S_S100000 (constant (F := Ideal) S_ .f32 0x3F800000#32)) (ix1 p) = (1 : EReal) := by
    rw [scalar_bcast_apply, constant_apply, Cert.NormSum.one_word]
  have h2 : maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)) (ix1 p)
      = degv (inEdges 100000 dst) p :=
    degv_host scatter_S100000_S1600000x1_S1600000_n_0_0_1_wf bcast_S_S100000 bcast_S1600000_S1600000x1_0 bcast_S_S1600000 dst p
  rw [hostDivf_apply, h1, h2]

/-! ## The first stretch in three parts

The first stretch is the concatenation of three lists of operations: up to the reciprocal degrees, the wrapping of the
sources, and the rest (the gather, the segment sum, the transposes and the bias row).  The contents after a concatenation
are the contents after the second list from the contents after the first, so the first aggregate is read part by part:
each part as a function of ARBITRARY entry contents G, the parts then composed from the launch memory. -/

/-- The fold over a concatenation of operation lists is the fold of the second over the fold of the first. -/
theorem after_append {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => exact ih _

section Split
variable {F : FTy → Type} [FloatOps F]

/-- Operations 1 to 17: the edge list's rows, the degrees and their reciprocals. -/
abbrev opsP1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.reshape main_v11 main_v12 rfl shapeCasts_S100000_S100000x1 ]

/-- Operations 18 to 25: the sources wrapped and made a column. -/
abbrev opsP2 : List (HloOp τ sig (Elt F)) :=
  [ StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)) ]

/-- Operations 26 to 33: the gather, the segment sum, the transposes and the bias row. -/
abbrev opsQ : List (HloOp τ sig (Elt F)) :=
  [ StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg2 main_v23 ((transpose S128x128 [1, 0] · transposes_S128x128_S128x128_1_0) : (⟨S128x128, .f32⟩ : BufTy).Contents (Elt F) → (⟨S128x128, .f32⟩ : BufTy).Contents (Elt F)),
    StableHlo.unary main_arg4 main_v24 ((transpose S128x128 [1, 0] · transposes_S128x128_S128x128_1_0) : (⟨S128x128, .f32⟩ : BufTy).Contents (Elt F) → (⟨S128x128, .f32⟩ : BufTy).Contents (Elt F)),
    StableHlo.reshape main_arg3 main_v25 rfl shapeCasts_S128_S1x128 ]

theorem hostOps0_split : (hostOps0 : List (HloOp τ sig (Elt F))) = opsP1 ++ (opsP2 ++ opsQ) := rfl

end Split

section Parts
variable (G : Valuation τ sig (Elt Ideal))

theorem p1_v1 : StableHlo.after (opsP1 (F := Ideal)) G (Proc.devRef .tc main_v1) = srcOf (G (Proc.devRef .tc main_arg1) : IVec S2x1600000 32) := by
  after_results
  exact srcs_eq _

theorem p1_v3 : StableHlo.after (opsP1 (F := Ideal)) G (Proc.devRef .tc main_v3) = dstOf (G (Proc.devRef .tc main_arg1) : IVec S2x1600000 32) := by
  after_results
  exact dsts_eq _

theorem p1_arg0 : StableHlo.after (opsP1 (F := Ideal)) G (Proc.devRef .tc main_arg0) = G (Proc.devRef .tc main_arg0) := by
  after_results

theorem p2_v18 : StableHlo.after (opsP2 (F := Ideal)) G (Proc.devRef .tc main_v18)
    = broadcastInDim S1600000x1 ![0] bcast_S1600000_S1600000x1_0
        (select (cmpi .slt (G (Proc.devRef .tc main_v1) : IVec S1600000 32) (broadcastInDim S1600000 ![] bcast_S_S1600000 (constantI S_ 32 0#32)))
          (addi (G (Proc.devRef .tc main_v1) : IVec S1600000 32) (broadcastInDim S1600000 ![] bcast_S_S1600000 (constantI S_ 32 100000#32)))
          (G (Proc.devRef .tc main_v1) : IVec S1600000 32)) := by
  after_results <;> rfl

theorem p2_v3 : StableHlo.after (opsP2 (F := Ideal)) G (Proc.devRef .tc main_v3) = G (Proc.devRef .tc main_v3) := by
  after_results

theorem p2_arg0 : StableHlo.after (opsP2 (F := Ideal)) G (Proc.devRef .tc main_arg0) = G (Proc.devRef .tc main_arg0) := by
  after_results

theorem q_v22 : StableHlo.after (opsQ (F := Ideal)) G (Proc.devRef .tc main_v22)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (G (Proc.devRef .tc main_v3) : IVec S1600000 32))
        (Host.gather gather_S100000x128_S1600000x1_S1600000x128_1_0_n_n_0_1_1128 (G (Proc.devRef .tc main_arg0) : FVec Ideal S100000x128 .f32)
          (G (Proc.devRef .tc main_v18) : IVec S1600000x1 32)) := by
  after_results <;> rfl

end Parts

variable (m : (ℓ : Loc nD τ sig) → Buf (Elt Ideal) ℓ) (ρ : Dev nD → PrngReg) (c : Dev nD)

/-- The gathered row of an edge, and the edges into a node, from the launch contents of the edge list. -/
abbrev gK : Fin 1600000 → Fin 100000 := srcRow 100000 hN (srcOf (m ((c : Thread nD τ).loc main_arg1)))
abbrev sK : Fin 100000 → Finset (Fin 1600000) := inEdges 100000 (dstOf (m ((c : Thread nD τ).loc main_arg1)))

/-! ## Before the first region -/

theorem w1_v1 : W1 m ρ c (Proc.devRef .tc main_v1) = srcOf (m ((c : Thread nD τ).loc main_arg1)) := by
  show StableHlo.after hostOps0 (W0 m ρ c) (Proc.devRef .tc main_v1) = _
  after_results
  exact srcs_eq _

theorem w1_v3 : W1 m ρ c (Proc.devRef .tc main_v3) = dstOf (m ((c : Thread nD τ).loc main_arg1)) := by
  show StableHlo.after hostOps0 (W0 m ρ c) (Proc.devRef .tc main_v3) = _
  after_results
  exact dsts_eq _

/-- The first aggregate. -/
theorem w1_v22 : W1 m ρ c (Proc.devRef .tc main_v22) = aggr (gK m c) (sK m c) (m ((c : Thread nD τ).loc main_arg0)) := by
  show StableHlo.after hostOps0 (W0 m ρ c) (Proc.devRef .tc main_v22) = _
  rw [hostOps0_split (F := Ideal), after_append, after_append, q_v22, p2_v3, p2_arg0, p2_v18, p1_v3, p1_arg0, p1_v1]
  exact aggr_host hN gather_S100000x128_S1600000x1_S1600000x128_1_0_n_n_0_1_1128_wf
    scatter_S100000x128_S1600000x1_S1600000x128_1_0_0_1_wf bcast_S_S100000x128 bcast_S1600000_S1600000x1_0 bcast_S_S1600000
    _ (srcOf (m ((c : Thread nD τ).loc main_arg1))) (dstOf (m ((c : Thread nD τ).loc main_arg1)))

set_option maxHeartbeats 1000000 in
/-- The reciprocal degrees as a column. -/
theorem w1_v12 : W1 m ρ c (Proc.devRef .tc main_v12) = invCol (sK m c) := by
  show StableHlo.after hostOps0 (W0 m ρ c) (Proc.devRef .tc main_v12) = _
  after_results
  show shapeCast S100000x1 (Host.divf (broadcastInDim S100000 ![] bcast_S_S100000 (constant (F := Ideal) S_ .f32 0x3F800000#32)) (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 (shapeCast S1600000 (extractStridedSlice S1x1600000 ![1, 0] (m ((c : Thread nD τ).loc main_arg1)) slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) shapeCasts_S100000_S100000x1 = _
  rw [dsts_eq]
  exact invcol_eq _

theorem w1_v23 : W1 m ρ c (Proc.devRef .tc main_v23) = tr (m ((c : Thread nD τ).loc main_arg2)) := by
  show StableHlo.after hostOps0 (W0 m ρ c) (Proc.devRef .tc main_v23) = _
  after_results
  exact tr_host _ _

theorem w1_v24 : W1 m ρ c (Proc.devRef .tc main_v24) = tr (m ((c : Thread nD τ).loc main_arg4)) := by
  show StableHlo.after hostOps0 (W0 m ρ c) (Proc.devRef .tc main_v24) = _
  after_results
  exact tr_host _ _

theorem w1_v25 : W1 m ρ c (Proc.devRef .tc main_v25) = asRow (m ((c : Thread nD τ).loc main_arg3)) := by
  show StableHlo.after hostOps0 (W0 m ρ c) (Proc.devRef .tc main_v25) = _
  after_results
  show shapeCast S1x128 (m ((c : Thread nD τ).loc main_arg3)) shapeCasts_S128_S1x128 = _
  exact row128_eq _

theorem w1_arg0 : W1 m ρ c (Proc.devRef .tc main_arg0) = (m ((c : Thread nD τ).loc main_arg0)) := by
  show StableHlo.after hostOps0 (W0 m ρ c) (Proc.devRef .tc main_arg0) = _
  after_results

theorem w1_arg5 : W1 m ρ c (Proc.devRef .tc main_arg5) = (m ((c : Thread nD τ).loc main_arg5)) := by
  show StableHlo.after hostOps0 (W0 m ρ c) (Proc.devRef .tc main_arg5) = _
  after_results

theorem w1_arg6 : W1 m ρ c (Proc.devRef .tc main_arg6) = (m ((c : Thread nD τ).loc main_arg6)) := by
  show StableHlo.after hostOps0 (W0 m ρ c) (Proc.devRef .tc main_arg6) = _
  after_results

theorem w1_arg7 : W1 m ρ c (Proc.devRef .tc main_arg7) = (m ((c : Thread nD τ).loc main_arg7)) := by
  show StableHlo.after hostOps0 (W0 m ρ c) (Proc.devRef .tc main_arg7) = _
  after_results

/-! ## Across the first region: its input arrays and the buffers it does not touch -/

theorem w2_v1 : W2 m ρ c (Proc.devRef .tc main_v1) = W1 m ρ c (Proc.devRef .tc main_v1) :=
  W2_of_ne m ρ c main_v1 (by decide)

theorem w2_v3 : W2 m ρ c (Proc.devRef .tc main_v3) = W1 m ρ c (Proc.devRef .tc main_v3) :=
  W2_of_ne m ρ c main_v3 (by decide)

theorem w2_arg5 : W2 m ρ c (Proc.devRef .tc main_arg5) = W1 m ρ c (Proc.devRef .tc main_arg5) :=
  W2_of_ne m ρ c main_arg5 (by decide)

theorem w2_arg6 : W2 m ρ c (Proc.devRef .tc main_arg6) = W1 m ρ c (Proc.devRef .tc main_arg6) :=
  W2_of_ne m ρ c main_arg6 (by decide)

theorem w2_arg7 : W2 m ρ c (Proc.devRef .tc main_arg7) = W1 m ρ c (Proc.devRef .tc main_arg7) :=
  W2_of_ne m ρ c main_arg7 (by decide)

theorem w2_v12 : W2 m ρ c (Proc.devRef .tc main_v12) = W1 m ρ c (Proc.devRef .tc main_v12) :=
  (W2_arr m ρ c 1).trans (((dat0 (V1 m ρ) c).arrAt_in 1 rfl _).trans (A_eq0 (V1 m ρ) c 1))

/-! ## The stretch between the first two regions -/

theorem w3_v27 : W3 m ρ c (Proc.devRef .tc main_v27) = tr (W2 m ρ c (Proc.devRef .tc main_arg5)) := by
  show StableHlo.after hostOps1 (W2 m ρ c) (Proc.devRef .tc main_v27) = _
  after_results
  exact tr_host _ _

theorem w3_v26 : W3 m ρ c (Proc.devRef .tc main_v26) = W2 m ρ c (Proc.devRef .tc main_v26) := by
  show StableHlo.after hostOps1 (W2 m ρ c) (Proc.devRef .tc main_v26) = _
  after_results

theorem w3_v1 : W3 m ρ c (Proc.devRef .tc main_v1) = W2 m ρ c (Proc.devRef .tc main_v1) := by
  show StableHlo.after hostOps1 (W2 m ρ c) (Proc.devRef .tc main_v1) = _
  after_results

theorem w3_v3 : W3 m ρ c (Proc.devRef .tc main_v3) = W2 m ρ c (Proc.devRef .tc main_v3) := by
  show StableHlo.after hostOps1 (W2 m ρ c) (Proc.devRef .tc main_v3) = _
  after_results

theorem w3_v12 : W3 m ρ c (Proc.devRef .tc main_v12) = W2 m ρ c (Proc.devRef .tc main_v12) := by
  show StableHlo.after hostOps1 (W2 m ρ c) (Proc.devRef .tc main_v12) = _
  after_results

theorem w3_arg6 : W3 m ρ c (Proc.devRef .tc main_arg6) = W2 m ρ c (Proc.devRef .tc main_arg6) := by
  show StableHlo.after hostOps1 (W2 m ρ c) (Proc.devRef .tc main_arg6) = _
  after_results

theorem w3_arg7 : W3 m ρ c (Proc.devRef .tc main_arg7) = W2 m ρ c (Proc.devRef .tc main_arg7) := by
  show StableHlo.after hostOps1 (W2 m ρ c) (Proc.devRef .tc main_arg7) = _
  after_results

/-! ## Across the second region -/

theorem w4_v1 : W4 m ρ c (Proc.devRef .tc main_v1) = W3 m ρ c (Proc.devRef .tc main_v1) :=
  W4_of_ne m ρ c main_v1 (by decide)

theorem w4_v3 : W4 m ρ c (Proc.devRef .tc main_v3) = W3 m ρ c (Proc.devRef .tc main_v3) :=
  W4_of_ne m ρ c main_v3 (by decide)

theorem w4_v12 : W4 m ρ c (Proc.devRef .tc main_v12) = W3 m ρ c (Proc.devRef .tc main_v12) :=
  W4_of_ne m ρ c main_v12 (by decide)

theorem w4_arg6 : W4 m ρ c (Proc.devRef .tc main_arg6) = W3 m ρ c (Proc.devRef .tc main_arg6) :=
  W4_of_ne m ρ c main_arg6 (by decide)

theorem w4_arg7 : W4 m ρ c (Proc.devRef .tc main_arg7) = W3 m ρ c (Proc.devRef .tc main_arg7) :=
  W4_of_ne m ρ c main_arg7 (by decide)

theorem w4_v26 : W4 m ρ c (Proc.devRef .tc main_v26) = W3 m ρ c (Proc.devRef .tc main_v26) :=
  (W4_arr m ρ c 0).trans (((dat1 (V3 m ρ) c).arrAt_in 0 rfl _).trans (A_eq1 (V3 m ρ) c 0))

/-! ## The stretch before the last region -/

/-- The second aggregate: of whatever the second region left in its output. -/
theorem w5_v38 : W5 m ρ c (Proc.devRef .tc main_v38)
    = aggr (srcRow 100000 hN (W4 m ρ c (Proc.devRef .tc main_v1))) (inEdges 100000 (W4 m ρ c (Proc.devRef .tc main_v3)))
        (W4 m ρ c (Proc.devRef .tc main_v28)) := by
  show StableHlo.after hostOps2 (W4 m ρ c) (Proc.devRef .tc main_v38) = _
  after_results
  exact aggr_host hN gather_S100000x64_S1600000x1_S1600000x64_1_0_n_n_0_1_164_wf
    scatter_S100000x64_S1600000x1_S1600000x64_1_0_0_1_wf bcast_S_S100000x64 bcast_S1600000_S1600000x1_0 bcast_S_S1600000
    _ _ _

theorem w5_v39 : W5 m ρ c (Proc.devRef .tc main_v39) = tr (W4 m ρ c (Proc.devRef .tc main_arg7)) := by
  show StableHlo.after hostOps2 (W4 m ρ c) (Proc.devRef .tc main_v39) = _
  after_results
  exact tr_host _ _

theorem w5_v40 : W5 m ρ c (Proc.devRef .tc main_v40) = asRow (W4 m ρ c (Proc.devRef .tc main_arg6)) := by
  show StableHlo.after hostOps2 (W4 m ρ c) (Proc.devRef .tc main_v40) = _
  after_results
  show shapeCast S1x64 (W4 m ρ c (Proc.devRef .tc main_arg6)) shapeCasts_S64_S1x64 = _
  exact row64_eq _

theorem w5_v12 : W5 m ρ c (Proc.devRef .tc main_v12) = W4 m ρ c (Proc.devRef .tc main_v12) := by
  show StableHlo.after hostOps2 (W4 m ρ c) (Proc.devRef .tc main_v12) = _
  after_results

theorem w5_v26 : W5 m ρ c (Proc.devRef .tc main_v26) = W4 m ρ c (Proc.devRef .tc main_v26) := by
  show StableHlo.after hostOps2 (W4 m ρ c) (Proc.devRef .tc main_v26) = _
  after_results

end Cert.KernelIdeal.Glue

end
-- ==== Proof.Regions.lean ====
/-
  THE THREE REGIONS OF THE TWO-LAYER GRAPH NETWORK, FROM BLOCKS OF ROWS TO WHOLE ARRAYS, at the ideal values.

  Each region runs its body over a grid of ten points.  At point `t` the body reads rows `10000 t … 10000 t + 9999` of
  every tall operand (the aggregate, the reciprocal degrees, the features), reads every weight matrix and bias row
  whole, and stores one block of 10000 rows of the result, which is written back to rows `10000 t …` of the result
  array.  Every entry of a result row depends only on the same row of the tall operands: a matrix product's row `p` is
  `∑ k, a (p, k) · w (k, c)`, a scaling by a column multiplies row `p` by the column's entry `p`, a bias row is added
  to every row, the rectifier acts entry by entry.  So the block a point stores is the same block of rows of ONE
  function of the whole arrays — the first layer `layer1K`, the product `prodArr`, the second layer `layer2K` — and,
  as the ten blocks of rows tile the result array (row `r` lies in the block of point `r / 10000`), the region leaves
  that function of its input arrays in its result array.

  Per region: the body's arithmetic read at a block index over variables (`payK_at`), the windows' block indices decided
  over the grid (`idxK_W`), each window's block as rows of its array (`iblkK_W_at`), what a point writes back
  (`flushedK`), the cover (`mem_blkK`, `coverK`), and the region's result array (`outK`).  The sums are compared term
  by term: no algebra of the extended reals is used, and the entry contents `V` of the arrays are arbitrary.
-/
import proofs.«120253_j59219009077768_2_alg».proof.Proof.Gen.KernelIdeal.Frame
import proofs.«120253_j59219009077768_2_alg».proof.Proof.LibGraphSpec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Regions

open Cert.KernelIdeal Cert.KernelIdeal.Gen Cert.Graph
open Cert.KernelIdeal.RegionValue (prodArr prodArr_apply block_prod off2_zero)

/-- A column broadcast over many columns: a `[a, 1]` array broadcast to `[a, b]` reads, at `(p, c)`, the column's entry
    of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-! ## The projection region: one matrix product, block of rows by block of rows -/

/-- The payload of the projection body at a block index: the product of the whole arrays at the array's index, when the
    left block is the left array read `off` rows down and the right block is the right array. -/
theorem pay1_at (x0 : Vec Ideal S10000x128 .f32) (x1 : Vec Ideal S128x64 .f32)
    (A : S100000x128.Idx → EReal) (W : S128x64.Idx → EReal) (off : ℕ)
    (y : S10000x64.Idx) (i : S100000x64.Idx)
    (hi0 : (i 0).val = off + (y 0).val) (hi1 : (i 1).val = (y 1).val)
    (ha : ∀ (u : S10000x128.Idx) (z : S100000x128.Idx), (z 0).val = off + (u 0).val → (z 1).val = (u 1).val → (x0 u : EReal) = A z)
    (hw : ∀ u : S128x64.Idx, (x1 u : EReal) = W u) :
    (k1_pay1 (F := Ideal) x0 x1 y : EReal) = prodArr A W i := by
  unfold k1_pay1
  exact block_prod (R := 10000) (R' := 100000) (K := 128) (N := 64) none (shapeCast S10000x128 x0 shapeCasts_S10000x128_S10000x128)
    (shapeCast S128x64 x1 shapeCasts_S128x64_S128x64) A W off y i hi0 hi1
    (fun u z h0 h1 => (congrFun (shapeCast_self x0 shapeCasts_S10000x128_S10000x128) u).trans (ha u z h0 h1))
    (fun u => (congrFun (shapeCast_self x1 shapeCasts_S128x64_S128x64) u).trans (hw u))

/-- The block indices of the projection region's windows, decided over the grid: the row-blocked windows sit at block
    `(t, 0)`, the weight window at `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)

/-- The left operand's block at point `t` is rows `10000 t …` of its array. -/
theorem iblk1_0_at (c : Dev nD) (t : Fin cfg1.N) (u : S10000x128.Idx) (z : S100000x128.Idx)
    (h0 : (z 0).val = 10000 * t.val + (u 0).val) (h1 : (z 1).val = (u 1).val) :
    ((iblk1 V c 0 t : Vec Ideal S10000x128 .f32) u : EReal) = (V c main_v26 : S100000x128.Idx → EReal) z := by
  obtain ⟨e0, e1⟩ := idx1_0 t
  unfold iblk1
  rw [View.read_apply]
  show (V c main_v26 : S100000x128.Idx → EReal) _ = _
  congr 1
  funext a
  apply Fin.ext
  match a with
  | ⟨0, _⟩ => show win1_0.index t (0 : Fin 2) * 10000 + 1 * (u 0).val = (z 0).val; rw [e0, h0]; omega
  | ⟨1, _⟩ => show win1_0.index t (1 : Fin 2) * 128 + 1 * (u 1).val = (z 1).val; rw [e1, h1]; omega

/-- The weight window's block at every point is its whole array. -/
theorem iblk1_1_at (c : Dev nD) (t : Fin cfg1.N) (u : S128x64.Idx) :
    ((iblk1 V c 1 t : Vec Ideal S128x64 .f32) u : EReal) = (V c main_v27 : S128x64.Idx → EReal) u := by
  obtain ⟨e0, e1⟩ := idx1_1 t
  unfold iblk1
  rw [View.read_apply]
  show (V c main_v27 : S128x64.Idx → EReal) _ = _
  congr 1
  funext a
  apply Fin.ext
  match a with
  | ⟨0, _⟩ => show win1_1.index t (0 : Fin 2) * 128 + 1 * (u 0).val = (u 0).val; rw [e0]; omega
  | ⟨1, _⟩ => show win1_1.index t (1 : Fin 2) * 64 + 1 * (u 1).val = (u 1).val; rw [e1]; omega

/-- What point `t` writes back is block `t` of the product of the two arrays. -/
theorem flushed1 (c : Dev nD) (t : Fin cfg1.N) :
    (dat1 (F := Ideal) V c).flushed 2 t
      = ((cfg1.win 2).blk t).view.read (Elt Ideal) (prodArr (V c main_v26) (V c main_v27) : S100000x64.Idx → EReal) := by
  show (cfg1.win 2).cut (grid1.coords t) ((dat1 V c).after 2 t) = _
  rw [after1_2]
  unfold out1_2
  rw [View.canon_unit_zero off2_zero]
  simp only [View.ld_unit_zero (S := S10000x128) off2_zero, View.ld_unit_zero (S := S128x64) off2_zero]
  obtain ⟨e0, e1⟩ := idx1_2 t
  funext j
  show (k1_pay1 (F := Ideal) (iblk1 V c 0 t) (iblk1 V c 1 t) j : EReal)
    = (prodArr (V c main_v26) (V c main_v27) : S100000x64.Idx → EReal) (((cfg1.win 2).blk t).view.emb j)
  refine pay1_at (iblk1 V c 0 t) (iblk1 V c 1 t) (V c main_v26) (V c main_v27) (10000 * t.val) j
    (((cfg1.win 2).blk t).view.emb j) ?_ ?_ (iblk1_0_at V c t) (iblk1_1_at V c t)
  · show win1_2.index t (0 : Fin 2) * 10000 + 1 * (j 0).val = 10000 * t.val + (j 0).val; rw [e0]; omega
  · show win1_2.index t (1 : Fin 2) * 64 + 1 * (j 1).val = (j 1).val; rw [e1]; omega

/-- An index of the product array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v28).slice (win1_2.rect t)).set ↔ _
  rw [View.set_slice_whole, Rect.mem_set_unit]
  exact Iff.rfl

/-- Row `r` of the product array is in the block of point `r / 10000`: the ten blocks of rows tile the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < cfg1.N := by show _ < grid1.N; rw [hN]; omega
  obtain ⟨e0, e1⟩ := idx1_2 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e1]; omega

/-- THE PROJECTION REGION leaves in its result array the product of its two input arrays. -/
theorem out1 (c : Dev nD) :
    (dat1 (F := Ideal) V c).arrAt 2 cfg1.N = (prodArr (V c main_v26) (V c main_v27) : S100000x64.Idx → EReal) :=
  (dat1 (F := Ideal) V c).arrAt_eq_of_cover 2 (prodArr (V c main_v26) (V c main_v27) : S100000x64.Idx → EReal)
    (fun t _ => flushed1 V c t) (cover1)

/-! ## The first layer's region -/

/-- The payload of the first layer's body at a block index: the layer of the whole arrays at the array's index, when the
    row-blocked blocks are their arrays read `off` rows down and the weight and bias blocks are their arrays. -/
theorem pay0_at (x0 : Vec Ideal S10000x128 .f32) (x1 : Vec Ideal S10000x1 .f32) (x2 : Vec Ideal S10000x128 .f32)
    (x3 x4 : Vec Ideal S128x128 .f32) (x5 : Vec Ideal S1x128 .f32)
    (MS : S100000x128.Idx → EReal) (INV : S100000x1.Idx → EReal) (X : S100000x128.Idx → EReal)
    (WL WR : S128x128.Idx → EReal) (B : S1x128.Idx → EReal) (off : ℕ)
    (y : S10000x128.Idx) (i : S100000x128.Idx)
    (hi0 : (i 0).val = off + (y 0).val) (hi1 : (i 1).val = (y 1).val)
    (h0 : ∀ (u : S10000x128.Idx) (z : S100000x128.Idx), (z 0).val = off + (u 0).val → (z 1).val = (u 1).val → (x0 u : EReal) = MS z)
    (h1 : ∀ (u : S10000x1.Idx) (z : S100000x1.Idx), (z 0).val = off + (u 0).val → (x1 u : EReal) = INV z)
    (h2 : ∀ (u : S10000x128.Idx) (z : S100000x128.Idx), (z 0).val = off + (u 0).val → (z 1).val = (u 1).val → (x2 u : EReal) = X z)
    (h3 : ∀ u : S128x128.Idx, (x3 u : EReal) = WL u) (h4 : ∀ u : S128x128.Idx, (x4 u : EReal) = WR u)
    (h5 : ∀ u : S1x128.Idx, (x5 u : EReal) = B u) :
    (k0_pay1 (F := Ideal) x0 x1 x3 x2 x4 x5 y : EReal) = layer1K MS INV X WL WR B i := by
  obtain ⟨p, q, rfl⟩ : ∃ (p : Fin 10000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  obtain rfl : q' = q := Fin.ext hi1
  unfold k0_pay1
  refine congrArg₂ max (congrArg₂ (· + ·) (congrArg₂ (· + ·) ?_ ?_) ?_) Ideal.ofBits_zero_f32
  · exact block_prod (R := 10000) (R' := 100000) (K := 128) (N := 128) none _ _ (scaleRows MS INV) WL off (ix2 p q') (ix2 p' q') hi0 rfl
      (fun u z hz0 hz1 => by
        obtain ⟨a, k, rfl⟩ : ∃ (a : Fin 10000) (k : Fin 128), u = ix2 a k := ⟨u 0, u 1, eq_ix2 u⟩
        obtain ⟨a', k', rfl⟩ : ∃ (a' : Fin 100000) (k' : Fin 128), z = ix2 a' k' := ⟨z 0, z 1, eq_ix2 z⟩
        show (shapeCast S10000x128 x0 shapeCasts_S10000x128_S10000x128 (ix2 a k) : EReal)
            * broadcastTo S10000x128 (shapeCast S10000x1 x1 shapeCasts_S10000x1_S10000x1) broadcasts_S10000x1_S10000x128 (ix2 a k)
          = MS (ix2 a' k') * INV (ix2 a' (0 : Fin 1))
        rw [shapeCast_self, shapeCast_self, broadcastTo_a1_ab_apply, h0 _ _ hz0 hz1, h1 (ix2 a (0 : Fin 1)) (ix2 a' (0 : Fin 1)) hz0])
      (fun u => (congrFun (shapeCast_self x3 shapeCasts_S128x128_S128x128) u).trans (h3 u))
  · exact block_prod (R := 10000) (R' := 100000) (K := 128) (N := 128) none x2 _ X WR off (ix2 p q') (ix2 p' q') hi0 rfl h2
      (fun u => (congrFun (shapeCast_self x4 shapeCasts_S128x128_S128x128) u).trans (h4 u))
  · exact (broadcastTo_1b_ab_apply _ broadcasts_S1x128_S10000x128 p q').trans
      ((congrFun (shapeCast_self x5 shapeCasts_S1x128_S1x128) _).trans (h5 _))

/-- The block indices of the first layer's windows, decided over the grid: the row-blocked windows sit at block
    `(t, 0)`, the weight and bias windows at `(0, 0)`. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-- The aggregate's block at point `t` is rows `10000 t …` of its array. -/
theorem iblk0_0_at (c : Dev nD) (t : Fin cfg0.N) (u : S10000x128.Idx) (z : S100000x128.Idx)
    (h0 : (z 0).val = 10000 * t.val + (u 0).val) (h1 : (z 1).val = (u 1).val) :
    ((iblk0 V c 0 t : Vec Ideal S10000x128 .f32) u : EReal) = (V c main_v22 : S100000x128.Idx → EReal) z := by
  obtain ⟨e0, e1⟩ := idx0_0 t
  unfold iblk0
  rw [View.read_apply]
  show (V c main_v22 : S100000x128.Idx → EReal) _ = _
  congr 1
  funext a
  apply Fin.ext
  match a with
  | ⟨0, _⟩ => show win0_0.index t (0 : Fin 2) * 10000 + 1 * (u 0).val = (z 0).val; rw [e0, h0]; omega
  | ⟨1, _⟩ => show win0_0.index t (1 : Fin 2) * 128 + 1 * (u 1).val = (z 1).val; rw [e1, h1]; omega

/-- The reciprocal degrees' block at point `t` is rows `10000 t …` of its one-column array. -/
theorem iblk0_1_at (c : Dev nD) (t : Fin cfg0.N) (u : S10000x1.Idx) (z : S100000x1.Idx)
    (h0 : (z 0).val = 10000 * t.val + (u 0).val) :
    ((iblk0 V c 1 t : Vec Ideal S10000x1 .f32) u : EReal) = (V c main_v12 : S100000x1.Idx → EReal) z := by
  obtain ⟨e0, e1⟩ := idx0_1 t
  have hu : (u 1).val < 1 := (u 1).isLt
  have hz : (z 1).val < 1 := (z 1).isLt
  unfold iblk0
  rw [View.read_apply]
  show (V c main_v12 : S100000x1.Idx → EReal) _ = _
  congr 1
  funext a
  apply Fin.ext
  match a with
  | ⟨0, _⟩ => show win0_1.index t (0 : Fin 2) * 10000 + 1 * (u 0).val = (z 0).val; rw [e0, h0]; omega
  | ⟨1, _⟩ => show win0_1.index t (1 : Fin 2) * 1 + 1 * (u 1).val = (z 1).val; rw [e1]; omega

/-- The features' block at point `t` is rows `10000 t …` of its array. -/
theorem iblk0_2_at (c : Dev nD) (t : Fin cfg0.N) (u : S10000x128.Idx) (z : S100000x128.Idx)
    (h0 : (z 0).val = 10000 * t.val + (u 0).val) (h1 : (z 1).val = (u 1).val) :
    ((iblk0 V c 2 t : Vec Ideal S10000x128 .f32) u : EReal) = (V c main_arg0 : S100000x128.Idx → EReal) z := by
  obtain ⟨e0, e1⟩ := idx0_2 t
  unfold iblk0
  rw [View.read_apply]
  show (V c main_arg0 : S100000x128.Idx → EReal) _ = _
  congr 1
  funext a
  apply Fin.ext
  match a with
  | ⟨0, _⟩ => show win0_2.index t (0 : Fin 2) * 10000 + 1 * (u 0).val = (z 0).val; rw [e0, h0]; omega
  | ⟨1, _⟩ => show win0_2.index t (1 : Fin 2) * 128 + 1 * (u 1).val = (z 1).val; rw [e1, h1]; omega

/-- The left weight window's block at every point is its whole array. -/
theorem iblk0_3_at (c : Dev nD) (t : Fin cfg0.N) (u : S128x128.Idx) :
    ((iblk0 V c 3 t : Vec Ideal S128x128 .f32) u : EReal) = (V c main_v23 : S128x128.Idx → EReal) u := by
  obtain ⟨e0, e1⟩ := idx0_3 t
  unfold iblk0
  rw [View.read_apply]
  show (V c main_v23 : S128x128.Idx → EReal) _ = _
  congr 1
  funext a
  apply Fin.ext
  match a with
  | ⟨0, _⟩ => show win0_3.index t (0 : Fin 2) * 128 + 1 * (u 0).val = (u 0).val; rw [e0]; omega
  | ⟨1, _⟩ => show win0_3.index t (1 : Fin 2) * 128 + 1 * (u 1).val = (u 1).val; rw [e1]; omega

/-- The right weight window's block at every point is its whole array. -/
theorem iblk0_4_at (c : Dev nD) (t : Fin cfg0.N) (u : S128x128.Idx) :
    ((iblk0 V c 4 t : Vec Ideal S128x128 .f32) u : EReal) = (V c main_v24 : S128x128.Idx → EReal) u := by
  obtain ⟨e0, e1⟩ := idx0_4 t
  unfold iblk0
  rw [View.read_apply]
  show (V c main_v24 : S128x128.Idx → EReal) _ = _
  congr 1
  funext a
  apply Fin.ext
  match a with
  | ⟨0, _⟩ => show win0_4.index t (0 : Fin 2) * 128 + 1 * (u 0).val = (u 0).val; rw [e0]; omega
  | ⟨1, _⟩ => show win0_4.index t (1 : Fin 2) * 128 + 1 * (u 1).val = (u 1).val; rw [e1]; omega

/-- The bias window's block at every point is its whole array. -/
theorem iblk0_5_at (c : Dev nD) (t : Fin cfg0.N) (u : S1x128.Idx) :
    ((iblk0 V c 5 t : Vec Ideal S1x128 .f32) u : EReal) = (V c main_v25 : S1x128.Idx → EReal) u := by
  obtain ⟨e0, e1⟩ := idx0_5 t
  unfold iblk0
  rw [View.read_apply]
  show (V c main_v25 : S1x128.Idx → EReal) _ = _
  congr 1
  funext a
  apply Fin.ext
  match a with
  | ⟨0, _⟩ => show win0_5.index t (0 : Fin 2) * 1 + 1 * (u 0).val = (u 0).val; rw [e0]; omega
  | ⟨1, _⟩ => show win0_5.index t (1 : Fin 2) * 128 + 1 * (u 1).val = (u 1).val; rw [e1]; omega

/-- What point `t` writes back is block `t` of the first layer of the arrays. -/
theorem flushed0 (c : Dev nD) (t : Fin cfg0.N) :
    (dat0 (F := Ideal) V c).flushed 6 t
      = ((cfg0.win 6).blk t).view.read (Elt Ideal) (layer1K (R := 100000) (K := 128) (M := 128) (V c main_v22) (V c main_v12) (V c main_arg0) (V c main_v23) (V c main_v24) (V c main_v25) : S100000x128.Idx → EReal) := by
  show (cfg0.win 6).cut (grid0.coords t) ((dat0 V c).after 6 t) = _
  rw [after0_6]
  unfold out0_6
  rw [View.canon_unit_zero off2_zero]
  simp only [View.ld_unit_zero (S := S10000x128) off2_zero, View.ld_unit_zero (S := S10000x1) off2_zero,
    View.ld_unit_zero (S := S128x128) off2_zero, View.ld_unit_zero (S := S1x128) off2_zero]
  obtain ⟨e0, e1⟩ := idx0_6 t
  funext j
  show (k0_pay1 (F := Ideal) (iblk0 V c 0 t) (iblk0 V c 1 t) (iblk0 V c 3 t) (iblk0 V c 2 t) (iblk0 V c 4 t) (iblk0 V c 5 t) j : EReal)
    = (layer1K (R := 100000) (K := 128) (M := 128) (V c main_v22) (V c main_v12) (V c main_arg0) (V c main_v23) (V c main_v24) (V c main_v25) : S100000x128.Idx → EReal) (((cfg0.win 6).blk t).view.emb j)
  refine pay0_at (iblk0 V c 0 t) (iblk0 V c 1 t) (iblk0 V c 2 t) (iblk0 V c 3 t) (iblk0 V c 4 t) (iblk0 V c 5 t)
    (V c main_v22) (V c main_v12) (V c main_arg0) (V c main_v23) (V c main_v24) (V c main_v25) (10000 * t.val) j
    (((cfg0.win 6).blk t).view.emb j) ?_ ?_ (iblk0_0_at V c t) (iblk0_1_at V c t) (iblk0_2_at V c t) (iblk0_3_at V c t)
    (iblk0_4_at V c t) (iblk0_5_at V c t)
  · show win0_6.index t (0 : Fin 2) * 10000 + 1 * (j 0).val = 10000 * t.val + (j 0).val; rw [e0]; omega
  · show win0_6.index t (1 : Fin 2) * 128 + 1 * (j 1).val = (j 1).val; rw [e1]; omega

/-- An index of the first layer's result array is in point `t`'s block iff each coordinate is in the block's range on its axis. -/
theorem mem_blk0 (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v26).slice (win0_6.rect t)).set ↔ _
  rw [View.set_slice_whole, Rect.mem_set_unit]
  exact Iff.rfl

/-- Row `r` of the first layer's result array is in the block of point `r / 10000`: the ten blocks of rows tile the array. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 10 := N_0
  have ht : (i 0).val / 10000 < cfg0.N := by show _ < grid0.N; rw [hN]; omega
  obtain ⟨e0, e1⟩ := idx0_6 ⟨(i 0).val / 10000, ht⟩
  refine ⟨⟨(i 0).val / 10000, ht⟩, flush0_6 _, ?_⟩
  rw [mem_blk0]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 128 ≤ (i 1).val
      ∧ (i 1).val < win0_6.index ⟨(i 0).val / 10000, ht⟩ (1 : Fin 2) * 128 + 128
    rw [e1]; omega

/-- THE FIRST LAYER'S REGION leaves in its result array the first layer of its input arrays. -/
theorem out0 (c : Dev nD) :
    (dat0 (F := Ideal) V c).arrAt 6 cfg0.N
      = (layer1K (R := 100000) (K := 128) (M := 128) (V c main_v22) (V c main_v12) (V c main_arg0) (V c main_v23) (V c main_v24) (V c main_v25) : S100000x128.Idx → EReal) :=
  (dat0 (F := Ideal) V c).arrAt_eq_of_cover 6 (layer1K (R := 100000) (K := 128) (M := 128) (V c main_v22) (V c main_v12) (V c main_arg0) (V c main_v23) (V c main_v24) (V c main_v25) : S100000x128.Idx → EReal)
    (fun t _ => flushed0 V c t) (cover0)

/-! ## The second layer's region -/

/-- The payload of the second layer's body at a block index: the layer of the whole arrays at the array's index, when the
    row-blocked blocks are their arrays read `off` rows down and the weight and bias blocks are their arrays. -/
theorem pay2_at (x0 : Vec Ideal S10000x64 .f32) (x1 : Vec Ideal S10000x1 .f32) (x2 : Vec Ideal S10000x128 .f32)
    (x3 : Vec Ideal S128x64 .f32) (x4 : Vec Ideal S1x64 .f32)
    (MS : S100000x64.Idx → EReal) (INV : S100000x1.Idx → EReal) (H : S100000x128.Idx → EReal)
    (WR : S128x64.Idx → EReal) (B : S1x64.Idx → EReal) (off : ℕ)
    (y : S10000x64.Idx) (i : S100000x64.Idx)
    (hi0 : (i 0).val = off + (y 0).val) (hi1 : (i 1).val = (y 1).val)
    (h0 : ∀ (u : S10000x64.Idx) (z : S100000x64.Idx), (z 0).val = off + (u 0).val → (z 1).val = (u 1).val → (x0 u : EReal) = MS z)
    (h1 : ∀ (u : S10000x1.Idx) (z : S100000x1.Idx), (z 0).val = off + (u 0).val → (x1 u : EReal) = INV z)
    (h2 : ∀ (u : S10000x128.Idx) (z : S100000x128.Idx), (z 0).val = off + (u 0).val → (z 1).val = (u 1).val → (x2 u : EReal) = H z)
    (h3 : ∀ u : S128x64.Idx, (x3 u : EReal) = WR u) (h4 : ∀ u : S1x64.Idx, (x4 u : EReal) = B u) :
    (k2_pay1 (F := Ideal) x0 x1 x2 x3 x4 y : EReal) = layer2K MS INV H WR B i := by
  obtain ⟨p, q, rfl⟩ : ∃ (p : Fin 10000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  obtain rfl : q' = q := Fin.ext hi1
  unfold k2_pay1
  refine congrArg₂ (· + ·) (congrArg₂ (· + ·) ?_ ?_) ?_
  · show (shapeCast S10000x64 x0 shapeCasts_S10000x64_S10000x64 (ix2 p q') : EReal)
        * broadcastTo S10000x64 (shapeCast S10000x1 x1 shapeCasts_S10000x1_S10000x1) broadcasts_S10000x1_S10000x64 (ix2 p q')
      = MS (ix2 p' q') * INV (ix2 p' (0 : Fin 1))
    rw [shapeCast_self, shapeCast_self, broadcastTo_a1_ab_apply, h0 _ _ hi0 rfl, h1 (ix2 p (0 : Fin 1)) (ix2 p' (0 : Fin 1)) hi0]
  · exact block_prod (R := 10000) (R' := 100000) (K := 128) (N := 64) none _ _ H WR off (ix2 p q') (ix2 p' q') hi0 rfl
      (fun u z hz0 hz1 => (congrFun (shapeCast_self x2 shapeCasts_S10000x128_S10000x128) u).trans (h2 u z hz0 hz1))
      (fun u => (congrFun (shapeCast_self x3 shapeCasts_S128x64_S128x64) u).trans (h3 u))
  · exact (broadcastTo_1b_ab_apply _ broadcasts_S1x64_S10000x64 p q').trans
      ((congrFun (shapeCast_self x4 shapeCasts_S1x64_S1x64) _).trans (h4 _))

/-- The block indices of the second layer's windows, decided over the grid: the row-blocked windows sit at block
    `(t, 0)`, the weight and bias windows at `(0, 0)`. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

/-- The projected aggregate's block at point `t` is rows `10000 t …` of its array. -/
theorem iblk2_0_at (c : Dev nD) (t : Fin cfg2.N) (u : S10000x64.Idx) (z : S100000x64.Idx)
    (h0 : (z 0).val = 10000 * t.val + (u 0).val) (h1 : (z 1).val = (u 1).val) :
    ((iblk2 V c 0 t : Vec Ideal S10000x64 .f32) u : EReal) = (V c main_v38 : S100000x64.Idx → EReal) z := by
  obtain ⟨e0, e1⟩ := idx2_0 t
  unfold iblk2
  rw [View.read_apply]
  show (V c main_v38 : S100000x64.Idx → EReal) _ = _
  congr 1
  funext a
  apply Fin.ext
  match a with
  | ⟨0, _⟩ => show win2_0.index t (0 : Fin 2) * 10000 + 1 * (u 0).val = (z 0).val; rw [e0, h0]; omega
  | ⟨1, _⟩ => show win2_0.index t (1 : Fin 2) * 64 + 1 * (u 1).val = (z 1).val; rw [e1, h1]; omega

/-- The reciprocal degrees' block at point `t` is rows `10000 t …` of its one-column array. -/
theorem iblk2_1_at (c : Dev nD) (t : Fin cfg2.N) (u : S10000x1.Idx) (z : S100000x1.Idx)
    (h0 : (z 0).val = 10000 * t.val + (u 0).val) :
    ((iblk2 V c 1 t : Vec Ideal S10000x1 .f32) u : EReal) = (V c main_v12 : S100000x1.Idx → EReal) z := by
  obtain ⟨e0, e1⟩ := idx2_1 t
  have hu : (u 1).val < 1 := (u 1).isLt
  have hz : (z 1).val < 1 := (z 1).isLt
  unfold iblk2
  rw [View.read_apply]
  show (V c main_v12 : S100000x1.Idx → EReal) _ = _
  congr 1
  funext a
  apply Fin.ext
  match a with
  | ⟨0, _⟩ => show win2_1.index t (0 : Fin 2) * 10000 + 1 * (u 0).val = (z 0).val; rw [e0, h0]; omega
  | ⟨1, _⟩ => show win2_1.index t (1 : Fin 2) * 1 + 1 * (u 1).val = (z 1).val; rw [e1]; omega

/-- The hidden features' block at point `t` is rows `10000 t …` of its array. -/
theorem iblk2_2_at (c : Dev nD) (t : Fin cfg2.N) (u : S10000x128.Idx) (z : S100000x128.Idx)
    (h0 : (z 0).val = 10000 * t.val + (u 0).val) (h1 : (z 1).val = (u 1).val) :
    ((iblk2 V c 2 t : Vec Ideal S10000x128 .f32) u : EReal) = (V c main_v26 : S100000x128.Idx → EReal) z := by
  obtain ⟨e0, e1⟩ := idx2_2 t
  unfold iblk2
  rw [View.read_apply]
  show (V c main_v26 : S100000x128.Idx → EReal) _ = _
  congr 1
  funext a
  apply Fin.ext
  match a with
  | ⟨0, _⟩ => show win2_2.index t (0 : Fin 2) * 10000 + 1 * (u 0).val = (z 0).val; rw [e0, h0]; omega
  | ⟨1, _⟩ => show win2_2.index t (1 : Fin 2) * 128 + 1 * (u 1).val = (z 1).val; rw [e1, h1]; omega

/-- The weight window's block at every point is its whole array. -/
theorem iblk2_3_at (c : Dev nD) (t : Fin cfg2.N) (u : S128x64.Idx) :
    ((iblk2 V c 3 t : Vec Ideal S128x64 .f32) u : EReal) = (V c main_v39 : S128x64.Idx → EReal) u := by
  obtain ⟨e0, e1⟩ := idx2_3 t
  unfold iblk2
  rw [View.read_apply]
  show (V c main_v39 : S128x64.Idx → EReal) _ = _
  congr 1
  funext a
  apply Fin.ext
  match a with
  | ⟨0, _⟩ => show win2_3.index t (0 : Fin 2) * 128 + 1 * (u 0).val = (u 0).val; rw [e0]; omega
  | ⟨1, _⟩ => show win2_3.index t (1 : Fin 2) * 64 + 1 * (u 1).val = (u 1).val; rw [e1]; omega

/-- The bias window's block at every point is its whole array. -/
theorem iblk2_4_at (c : Dev nD) (t : Fin cfg2.N) (u : S1x64.Idx) :
    ((iblk2 V c 4 t : Vec Ideal S1x64 .f32) u : EReal) = (V c main_v40 : S1x64.Idx → EReal) u := by
  obtain ⟨e0, e1⟩ := idx2_4 t
  unfold iblk2
  rw [View.read_apply]
  show (V c main_v40 : S1x64.Idx → EReal) _ = _
  congr 1
  funext a
  apply Fin.ext
  match a with
  | ⟨0, _⟩ => show win2_4.index t (0 : Fin 2) * 1 + 1 * (u 0).val = (u 0).val; rw [e0]; omega
  | ⟨1, _⟩ => show win2_4.index t (1 : Fin 2) * 64 + 1 * (u 1).val = (u 1).val; rw [e1]; omega

/-- What point `t` writes back is block `t` of the second layer of the arrays. -/
theorem flushed2 (c : Dev nD) (t : Fin cfg2.N) :
    (dat2 (F := Ideal) V c).flushed 5 t
      = ((cfg2.win 5).blk t).view.read (Elt Ideal) (layer2K (R := 100000) (K := 128) (M := 64) (V c main_v38) (V c main_v12) (V c main_v26) (V c main_v39) (V c main_v40) : S100000x64.Idx → EReal) := by
  show (cfg2.win 5).cut (grid2.coords t) ((dat2 V c).after 5 t) = _
  rw [after2_5]
  unfold out2_5
  rw [View.canon_unit_zero off2_zero]
  simp only [View.ld_unit_zero (S := S10000x64) off2_zero, View.ld_unit_zero (S := S10000x1) off2_zero,
    View.ld_unit_zero (S := S10000x128) off2_zero, View.ld_unit_zero (S := S128x64) off2_zero,
    View.ld_unit_zero (S := S1x64) off2_zero]
  obtain ⟨e0, e1⟩ := idx2_5 t
  funext j
  show (k2_pay1 (F := Ideal) (iblk2 V c 0 t) (iblk2 V c 1 t) (iblk2 V c 2 t) (iblk2 V c 3 t) (iblk2 V c 4 t) j : EReal)
    = (layer2K (R := 100000) (K := 128) (M := 64) (V c main_v38) (V c main_v12) (V c main_v26) (V c main_v39) (V c main_v40) : S100000x64.Idx → EReal) (((cfg2.win 5).blk t).view.emb j)
  refine pay2_at (iblk2 V c 0 t) (iblk2 V c 1 t) (iblk2 V c 2 t) (iblk2 V c 3 t) (iblk2 V c 4 t)
    (V c main_v38) (V c main_v12) (V c main_v26) (V c main_v39) (V c main_v40) (10000 * t.val) j
    (((cfg2.win 5).blk t).view.emb j) ?_ ?_ (iblk2_0_at V c t) (iblk2_1_at V c t) (iblk2_2_at V c t) (iblk2_3_at V c t)
    (iblk2_4_at V c t)
  · show win2_5.index t (0 : Fin 2) * 10000 + 1 * (j 0).val = 10000 * t.val + (j 0).val; rw [e0]; omega
  · show win2_5.index t (1 : Fin 2) * 64 + 1 * (j 1).val = (j 1).val; rw [e1]; omega

/-- An index of the second layer's result array is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v41).slice (win2_5.rect t)).set ↔ _
  rw [View.set_slice_whole, Rect.mem_set_unit]
  exact Iff.rfl

/-- Row `r` of the second layer's result array is in the block of point `r / 10000`: the ten blocks of rows tile the array. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 10 := N_2
  have ht : (i 0).val / 10000 < cfg2.N := by show _ < grid2.N; rw [hN]; omega
  obtain ⟨e0, e1⟩ := idx2_5 ⟨(i 0).val / 10000, ht⟩
  refine ⟨⟨(i 0).val / 10000, ht⟩, flush2_5 _, ?_⟩
  rw [mem_blk2]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, ht⟩ (1 : Fin 2) * 64 ≤ (i 1).val
      ∧ (i 1).val < win2_5.index ⟨(i 0).val / 10000, ht⟩ (1 : Fin 2) * 64 + 64
    rw [e1]; omega

/-- THE SECOND LAYER'S REGION leaves in its result array the second layer of its input arrays. -/
theorem out2 (c : Dev nD) :
    (dat2 (F := Ideal) V c).arrAt 5 cfg2.N
      = (layer2K (R := 100000) (K := 128) (M := 64) (V c main_v38) (V c main_v12) (V c main_v26) (V c main_v39) (V c main_v40) : S100000x64.Idx → EReal) :=
  (dat2 (F := Ideal) V c).arrAt_eq_of_cover 5 (layer2K (R := 100000) (K := 128) (M := 64) (V c main_v38) (V c main_v12) (V c main_v26) (V c main_v39) (V c main_v40) : S100000x64.Idx → EReal)
    (fun t _ => flushed2 V c t) (cover2)

end Cert.KernelIdeal.Regions

end
-- ==== Proof.KernelValue.lean ====
/-
  THE IDEALIZED KERNEL'S RESULT AS THE SPECIFICATION'S SECOND SHAPE.

  The first region leaves the rectified first layer h of the first aggregate, the reciprocal degrees, the node
  features, the transposed weights and the one-row bias; the second leaves the projection h · Wl2ᵀ; the host gathers and
  sums its rows; the last region leaves ((that aggregate ⊙ reciprocal degrees) + h · Wr2ᵀ) + b2.  Reading each region's
  output array as a whole-array function of its entry contents, and each entry buffer back to the launch memory, the
  result array at the last boundary is kernelOut of the arguments.
-/
import proofs.«120253_j59219009077768_2_alg».proof.Proof.KernelGlue
import proofs.«120253_j59219009077768_2_alg».proof.Proof.Regions

set_option maxRecDepth 16384

noncomputable section

open scoped BigOperators

namespace Cert.KernelIdeal.KValue

open Cert.KernelIdeal Cert.KernelIdeal.Gen Cert.KernelIdeal.Glue Cert.Graph
open Idealize.ShloMosaic Idealize.ShloMosaic.TcCoe Idealize.ShloMosaic.ValueIdx Idealize.SL.Sem
open Cert.KernelIdeal.RegionValue (prodArr prodArr_apply)

variable (m : (ℓ : Loc nD τ sig) → Buf (Elt Ideal) ℓ) (ρ : Dev nD → PrngReg) (c : Dev nD)

/-- The hidden features: the first layer in the second shape, of the launch contents. -/
abbrev hK : S100000x128.Idx → EReal :=
  layer1K (aggr (gK m c) (sK m c) (m ((c : Thread nD τ).loc main_arg0))) (invCol (sK m c)) (m ((c : Thread nD τ).loc main_arg0)) (tr (m ((c : Thread nD τ).loc main_arg2))) (tr (m ((c : Thread nD τ).loc main_arg4))) (asRow (m ((c : Thread nD τ).loc main_arg3)))

/-- The first region's output. -/
theorem w2_v26 : W2 m ρ c (Proc.devRef .tc main_v26) = hK m c :=
  (W2_arr m ρ c 6).trans ((Cert.KernelIdeal.Regions.out0 (V1 m ρ) c).trans (by
    show layer1K (W1 m ρ c (Proc.devRef .tc main_v22)) (W1 m ρ c (Proc.devRef .tc main_v12)) (W1 m ρ c (Proc.devRef .tc main_arg0))
      (W1 m ρ c (Proc.devRef .tc main_v23)) (W1 m ρ c (Proc.devRef .tc main_v24)) (W1 m ρ c (Proc.devRef .tc main_v25)) = _
    rw [w1_v22, w1_v12, w1_arg0, w1_v23, w1_v24, w1_v25]))

/-- The second region's output: the projection of the hidden features. -/
theorem w4_v28 : W4 m ρ c (Proc.devRef .tc main_v28) = prodArr (hK m c) (tr (m ((c : Thread nD τ).loc main_arg5))) :=
  (W4_arr m ρ c 2).trans ((Cert.KernelIdeal.Regions.out1 (V3 m ρ) c).trans (by
    show prodArr (W3 m ρ c (Proc.devRef .tc main_v26)) (W3 m ρ c (Proc.devRef .tc main_v27)) = _
    rw [w3_v26, w2_v26, w3_v27, w2_arg5, w1_arg5]))

/-- The edge list's rows, the reciprocal degrees, the hidden features and the last weights and bias, carried to the last
    stretch. -/
theorem w4_src : W4 m ρ c (Proc.devRef .tc main_v1) = srcOf (m ((c : Thread nD τ).loc main_arg1)) := by rw [w4_v1, w3_v1, w2_v1, w1_v1]
theorem w4_dst : W4 m ρ c (Proc.devRef .tc main_v3) = dstOf (m ((c : Thread nD τ).loc main_arg1)) := by rw [w4_v3, w3_v3, w2_v3, w1_v3]
theorem w4_inv : W4 m ρ c (Proc.devRef .tc main_v12) = invCol (sK m c) := by rw [w4_v12, w3_v12, w2_v12, w1_v12]
theorem w4_hid : W4 m ρ c (Proc.devRef .tc main_v26) = hK m c := by rw [w4_v26, w3_v26, w2_v26]
theorem w4_b2 : W4 m ρ c (Proc.devRef .tc main_arg6) = (m ((c : Thread nD τ).loc main_arg6)) := by rw [w4_arg6, w3_arg6, w2_arg6, w1_arg6]
theorem w4_wr2 : W4 m ρ c (Proc.devRef .tc main_arg7) = (m ((c : Thread nD τ).loc main_arg7)) := by rw [w4_arg7, w3_arg7, w2_arg7, w1_arg7]

/-- The result array at the last boundary is the second shape of the network, of the arguments. -/
theorem result : W6 m ρ c (Proc.devRef .tc main_v41)
    = kernelOut (gK m c) (sK m c) (m ((c : Thread nD τ).loc main_arg0)) (tr (m ((c : Thread nD τ).loc main_arg2))) (tr (m ((c : Thread nD τ).loc main_arg4))) (m ((c : Thread nD τ).loc main_arg3)) (tr (m ((c : Thread nD τ).loc main_arg5))) (tr (m ((c : Thread nD τ).loc main_arg7))) (m ((c : Thread nD τ).loc main_arg6)) :=
  (W6_arr m ρ c 5).trans ((Cert.KernelIdeal.Regions.out2 (V5 m ρ) c).trans (by
    show layer2K (W5 m ρ c (Proc.devRef .tc main_v38)) (W5 m ρ c (Proc.devRef .tc main_v12)) (W5 m ρ c (Proc.devRef .tc main_v26))
      (W5 m ρ c (Proc.devRef .tc main_v39)) (W5 m ρ c (Proc.devRef .tc main_v40)) = _
    rw [w5_v38, w5_v12, w5_v26, w5_v39, w5_v40, w4_src, w4_dst, w4_v28, w4_inv, w4_hid, w4_b2, w4_wr2]
    rfl))

end Cert.KernelIdeal.KValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«120253_j59219009077768_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.RefValue.lean ====
/-
  THE REFERENCE'S RESULT AS THE SPECIFICATION'S FIRST SHAPE.

  The reference computes two graph layers one operation at a time.  Each of its stages is rewritten here as a
  whole-array function of the specification: the two rows of the edge list (srcOf, dstOf); the gather of rows at the
  wrapped sources followed by the segment sum (aggr); the degree (degv); the quotient by the degree broadcast along the
  rows (meanAgg); a transposed weight (tr); a host product (prodArr); the bias broadcast over the rows; the rectifier.
  Put together the result is refOut of the arguments.  Sums are compared term by term: no law of the extended reals is
  used here.
-/
import proofs.«120253_j59219009077768_2_alg».proof.Proof.Gen.ReferenceIdeal.Read
import proofs.«120253_j59219009077768_2_alg».proof.Proof.LibGraphHost
import proofs.«120253_j59219009077768_2_alg».proof.Proof.LibProdRows

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Graph
open Cert.KernelIdeal.RegionValue (prodArr prodArr_apply)

/-- The graph has a node. -/
theorem hN : 0 < 100000 := by norm_num

/-- The gathered row of an edge and the edges into a node, from the edge list. -/
abbrev gOf (x1 : (⟨S2x1600000, .i32⟩ : BufTy).Contents (Elt Ideal)) : Fin 1600000 → Fin 100000 := srcRow 100000 hN (srcOf x1)
abbrev sOf (x1 : (⟨S2x1600000, .i32⟩ : BufTy).Contents (Elt Ideal)) : Fin 100000 → Finset (Fin 1600000) := inEdges 100000 (dstOf x1)

/-! ## The edge list's two rows -/

theorem row_of_list (r : Fin 2) (x1 : (⟨S2x1600000, .i32⟩ : BufTy).Contents (Elt Ideal)) (v : (⟨S1600000, .i32⟩ : BufTy).Contents (Elt Ideal))
    (h : ∀ e : Fin 1600000, v (ix1 e) = x1 (ix2 r e)) :
    v = fun i => x1 (ix2 r (i 0)) := by
  funext i
  obtain ⟨e, rfl⟩ : ∃ e : Fin 1600000, i = ix1 e := ⟨i 0, eq_ix1 i⟩
  exact h e

theorem src_eq (x1 : (⟨S2x1600000, .i32⟩ : BufTy).Contents (Elt Ideal)) : val_main_v1 (F := Ideal) x1 = srcOf x1 :=
  row_of_list 0 x1 _ fun e => by
    rw [val_main_v1_apply, val_main_v0_apply]
    refine congrArg x1 (funext fun a => Fin.ext ?_)
    match a with
    | ⟨0, _⟩ => rfl
    | ⟨1, _⟩ => exact Nat.mod_eq_of_lt e.isLt

theorem dst_eq (x1 : (⟨S2x1600000, .i32⟩ : BufTy).Contents (Elt Ideal)) : val_main_v3 (F := Ideal) x1 = dstOf x1 :=
  row_of_list 1 x1 _ fun e => by
    rw [val_main_v3_apply, val_main_v2_apply]
    refine congrArg x1 (funext fun a => Fin.ext ?_)
    match a with
    | ⟨0, _⟩ => rfl
    | ⟨1, _⟩ => exact Nat.mod_eq_of_lt e.isLt

theorem src_eq' (x1 : (⟨S2x1600000, .i32⟩ : BufTy).Contents (Elt Ideal)) : val_main_v33 (F := Ideal) x1 = srcOf x1 :=
  row_of_list 0 x1 _ fun e => by
    rw [val_main_v33_apply, val_main_v32_apply]
    refine congrArg x1 (funext fun a => Fin.ext ?_)
    match a with
    | ⟨0, _⟩ => rfl
    | ⟨1, _⟩ => exact Nat.mod_eq_of_lt e.isLt

theorem dst_eq' (x1 : (⟨S2x1600000, .i32⟩ : BufTy).Contents (Elt Ideal)) : val_main_v35 (F := Ideal) x1 = dstOf x1 :=
  row_of_list 1 x1 _ fun e => by
    rw [val_main_v35_apply, val_main_v34_apply]
    refine congrArg x1 (funext fun a => Fin.ext ?_)
    match a with
    | ⟨0, _⟩ => rfl
    | ⟨1, _⟩ => exact Nat.mod_eq_of_lt e.isLt

/-! ## The first layer -/

/-- The first aggregate. -/
theorem agg1_eq (x0 : (⟨S100000x128, .f32⟩ : BufTy).Contents (Elt Ideal)) (x1 : (⟨S2x1600000, .i32⟩ : BufTy).Contents (Elt Ideal)) : val_main_v13 (F := Ideal) x0 x1 = aggr (gOf x1) (sOf x1) x0 := by
  unfold val_main_v13 val_main_v12 val_main_v11 val_main_v10 val_main_v9 val_main_v8 val_main_v7 val_main_v6 val_main_v5
    val_main_v4 val_main_c val_main_c_0 val_main_cst
  rw [src_eq, dst_eq]
  exact aggr_host hN gather_S100000x128_S1600000x1_S1600000x128_1_0_n_n_0_1_1128_wf
    scatter_S100000x128_S1600000x1_S1600000x128_1_0_0_1_wf bcast_S_S100000x128 bcast_S1600000_S1600000x1_0 bcast_S_S1600000
    x0 (srcOf x1) (dstOf x1)

/-- The degree, at a node. -/
theorem deg1_eq (x1 : (⟨S2x1600000, .i32⟩ : BufTy).Contents (Elt Ideal)) (p : Fin 100000) : val_main_v19 (F := Ideal) x1 (ix1 p) = degv (sOf x1) p := by
  unfold val_main_v19 val_main_v18 val_main_v17 val_main_v16 val_main_v15 val_main_v14 val_main_cst_1 val_main_cst_2 val_main_cst_3
  rw [dst_eq]
  exact degv_host scatter_S100000_S1600000x1_S1600000_n_0_0_1_wf bcast_S_S100000 bcast_S1600000_S1600000x1_0 bcast_S_S1600000
    (dstOf x1) p

/-- The first mean aggregate. -/
theorem mean1_eq (x0 : (⟨S100000x128, .f32⟩ : BufTy).Contents (Elt Ideal)) (x1 : (⟨S2x1600000, .i32⟩ : BufTy).Contents (Elt Ideal)) : val_main_v22 (F := Ideal) x0 x1 = meanAgg (gOf x1) (sOf x1) x0 := by
  funext i
  obtain ⟨p, c, rfl⟩ : ∃ (p : Fin 100000) (c : Fin 128), i = ix2 p c := ⟨i 0, i 1, eq_ix2 i⟩
  rw [val_main_v22_apply, val_main_v21_apply, val_main_v20_apply, agg1_eq, meanAgg_apply]
  have e : idx_main_v20 (idx_main_v21 (ix2 p c)) = ix1 p := funext fun a => Fin.ext (by
    match a with
    | ⟨0, _⟩ => rfl)
  rw [e, deg1_eq]
  rfl

/-- The bias of the first layer, broadcast over the rows, at an entry. -/
theorem bias1_apply (x3 : (⟨S128, .f32⟩ : BufTy).Contents (Elt Ideal)) (p : Fin 100000) (c : Fin 128) : val_main_v26 (F := Ideal) x3 (ix2 p c) = x3 (ix1 c) := by
  rw [val_main_v26_apply, val_main_v25_apply]
  refine congrArg x3 (funext fun a => Fin.ext ?_)
  match a with
  | ⟨0, _⟩ => rfl

/-- The hidden features: the first layer rectified. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = reluArr (layerR (meanAgg (gOf x1) (sOf x1) x0) x0 (tr x2) (tr x4) x3) := by
  have e24 : val_main_v24 (F := Ideal) x0 x1 x2 = prodArr (meanAgg (gOf x1) (sOf x1) x0) (tr x2) := by
    unfold val_main_v24 val_main_v23
    rw [mean1_eq, tr_host]
    exact Cert.ProdRows.hprod none _ _
  have e29 : val_main_v29 (F := Ideal) x0 x4 = prodArr x0 (tr x4) := by
    unfold val_main_v29 val_main_v28
    rw [tr_host]
    exact Cert.ProdRows.hprod none _ _
  funext i
  obtain ⟨p, c, rfl⟩ : ∃ (p : Fin 100000) (c : Fin 128), i = ix2 p c := ⟨i 0, i 1, eq_ix2 i⟩
  rw [val_main_v31_apply, val_main_v30_apply, val_main_v27_apply, e24, e29, bias1_apply, val_main_call0_v0_apply,
    val_main_call0_cst_apply]
  show max ((prodArr _ _ (ix2 p c) + x3 (ix1 c)) + prodArr _ _ (ix2 p c)) (Ideal.ofBits .f32 0x00000000#32) = _
  rw [Ideal.ofBits_zero_f32]
  rfl

/-! ## The second layer -/

/-- The second aggregate, of the hidden features. -/
theorem agg2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v45 (F := Ideal) x0 x1 x2 x3 x4 = aggr (gOf x1) (sOf x1) (val_main_v31 (F := Ideal) x0 x1 x2 x3 x4) := by
  unfold val_main_v45 val_main_v44 val_main_v43 val_main_v42 val_main_v41 val_main_v40 val_main_v39 val_main_v38 val_main_v37
    val_main_v36 val_main_c_4 val_main_c_5 val_main_cst_6
  rw [src_eq', dst_eq']
  exact aggr_host hN gather_S100000x128_S1600000x1_S1600000x128_1_0_n_n_0_1_1128_wf
    scatter_S100000x128_S1600000x1_S1600000x128_1_0_0_1_wf bcast_S_S100000x128 bcast_S1600000_S1600000x1_0 bcast_S_S1600000
    (val_main_v31 (F := Ideal) x0 x1 x2 x3 x4) (srcOf x1) (dstOf x1)

theorem deg2_eq (x1 : (⟨S2x1600000, .i32⟩ : BufTy).Contents (Elt Ideal)) (p : Fin 100000) : val_main_v51 (F := Ideal) x1 (ix1 p) = degv (sOf x1) p := by
  unfold val_main_v51 val_main_v50 val_main_v49 val_main_v48 val_main_v47 val_main_v46 val_main_cst_7 val_main_cst_8 val_main_cst_9
  rw [dst_eq']
  exact degv_host scatter_S100000_S1600000x1_S1600000_n_0_0_1_wf bcast_S_S100000 bcast_S1600000_S1600000x1_0 bcast_S_S1600000
    (dstOf x1) p

theorem mean2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v54 (F := Ideal) x0 x1 x2 x3 x4 = meanAgg (gOf x1) (sOf x1) (val_main_v31 (F := Ideal) x0 x1 x2 x3 x4) := by
  funext i
  obtain ⟨p, c, rfl⟩ : ∃ (p : Fin 100000) (c : Fin 128), i = ix2 p c := ⟨i 0, i 1, eq_ix2 i⟩
  rw [val_main_v54_apply, val_main_v53_apply, val_main_v52_apply, agg2_eq, meanAgg_apply]
  have e : idx_main_v52 (idx_main_v53 (ix2 p c)) = ix1 p := funext fun a => Fin.ext (by
    match a with
    | ⟨0, _⟩ => rfl)
  rw [e, deg2_eq]
  rfl

theorem bias2_apply (x6 : (⟨S64, .f32⟩ : BufTy).Contents (Elt Ideal)) (p : Fin 100000) (c : Fin 64) : val_main_v58 (F := Ideal) x6 (ix2 p c) = x6 (ix1 c) := by
  rw [val_main_v58_apply, val_main_v57_apply]
  refine congrArg x6 (funext fun a => Fin.ext ?_)
  match a with
  | ⟨0, _⟩ => rfl

/-- The result's stage is the second layer over the hidden features. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) :
    val_main_v62 (F := Ideal) x0 x1 x2 x3 x4 x5 x6 x7
      = refOut (gOf x1) (sOf x1) x0 (tr x2) (tr x4) x3 (tr x5) (tr x7) x6 := by
  have e56 : val_main_v56 (F := Ideal) x0 x1 x2 x3 x4 x5
      = prodArr (meanAgg (gOf x1) (sOf x1) (val_main_v31 (F := Ideal) x0 x1 x2 x3 x4)) (tr x5) := by
    unfold val_main_v56 val_main_v55
    rw [mean2_eq, tr_host]
    exact Cert.ProdRows.hprod none _ _
  have e61 : val_main_v61 (F := Ideal) x0 x1 x2 x3 x4 x7 = prodArr (val_main_v31 (F := Ideal) x0 x1 x2 x3 x4) (tr x7) := by
    unfold val_main_v61 val_main_v60
    rw [tr_host]
    exact Cert.ProdRows.hprod none _ _
  funext i
  obtain ⟨p, c, rfl⟩ : ∃ (p : Fin 100000) (c : Fin 64), i = ix2 p c := ⟨i 0, i 1, eq_ix2 i⟩
  rw [val_main_v62_apply, val_main_v59_apply, e56, e61, bias2_apply, hidden_eq]
  rfl

/-- The reference run's result term is the first shape of the network, of the arguments. -/
theorem res_eq (m : (ℓ : Loc nD τ sig) → Buf (Elt Ideal) ℓ) (c : Dev nD) :
    Cert.ReferenceIdeal.Value.res_main_v62 (F := Ideal) m c
      = refOut (gOf (m ((c.tc : Thread nD τ).loc main_arg1))) (sOf (m ((c.tc : Thread nD τ).loc main_arg1)))
          (m ((c.tc : Thread nD τ).loc main_arg0)) (tr (m ((c.tc : Thread nD τ).loc main_arg2)))
          (tr (m ((c.tc : Thread nD τ).loc main_arg4))) (m ((c.tc : Thread nD τ).loc main_arg3))
          (tr (m ((c.tc : Thread nD τ).loc main_arg5))) (tr (m ((c.tc : Thread nD τ).loc main_arg7)))
          (m ((c.tc : Thread nD τ).loc main_arg6)) :=
  (val_main_v62_eq m c).trans (out_eq _ _ _ _ _ _ _ _)

end Cert.ReferenceIdeal.RefValue

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«120253_j59219009077768_2_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.LibGraphBridge.lean ====
/-
  THE TWO SHAPES OF THE TWO-LAYER NETWORK AGREE ON REAL INPUTS.

  The degree of a node is the real number max (number of incoming edges) 1, at least one.  Dividing by it is therefore
  multiplying by the real reciprocal q, for every extended real numerator, and the column of reciprocal degrees holds q.

  First layer.  With A the aggregate of x, the second shape is
      max (((∑ k, (A(p,k) · q) · wl(k,c)) + ∑ k, x(p,k) · wr(k,c)) + b c) 0
  and the first shape is
      max (((∑ k, (A(p,k) / d p) · wl(k,c)) + b c) + ∑ k, x(p,k) · wr(k,c)) 0.
  They differ by the order of two summands: addition of extended reals is commutative and associative without any
  finiteness.  Every entry of the common array h is a real number when the inputs are.

  Second layer.  The second shape aggregates the projected rows, ((0 + ∑ e, ∑ k, h(g e,k) · wl(k,c)) · q, while the first
  projects the mean aggregate, ∑ k, ((0 + ∑ e, h(g e,k)) · q) · wl(k,c).  Moving the factor q across the sum and exchanging
  the two sums is an identity of real numbers; it is used at real entries only (h and wl real), where the coercion
  commutes with finite sums and products.
-/
import proofs.«120253_j59219009077768_2_alg».proof.Proof.LibGraphSpec
import proofs.«120253_j59219009077768_2_alg».proof.Proof.LibRealEntries

noncomputable section

open scoped BigOperators

namespace Cert.Graph

open Idealize.ShloMosaic Idealize.ShloMosaic.ValueIdx
open Cert.KernelIdeal.RegionValue (prodArr prodArr_apply)
open Cert.RealEntries (IsR coe_sum exists_real_family)

variable {N E : ℕ}

/-- The degree is a real number, at least one. -/
theorem degv_real (S : Fin N → Finset (Fin E)) (p : Fin N) : ∃ r : ℝ, 1 ≤ r ∧ degv S p = (r : EReal) := by
  refine ⟨max ((S p).card : ℝ) 1, le_max_right _ _, ?_⟩
  unfold degv
  rw [zero_add, Finset.sum_const, EReal.nsmul_eq_mul, mul_one, ← EReal.coe_natCast, ← EReal.coe_one]
  exact (EReal.coe_strictMono.monotone.map_max).symm

/-- Division by the degree is multiplication by one real number q, whatever the numerator; the column of reciprocal
    degrees holds q. -/
theorem exists_recip (S : Fin N → Finset (Fin E)) (p : Fin N) :
    ∃ q : ℝ, (∀ a : EReal, Ideal.div a (degv S p) = a * (q : EReal)) ∧ invCol S (ix2 p (0 : Fin 1)) = (q : EReal) := by
  obtain ⟨r, hr, hd⟩ := degv_real S p
  have hr0 : r ≠ 0 := by linarith
  refine ⟨1 / r, fun a => by rw [hd, Ideal.div_coe hr0], ?_⟩
  rw [invCol_apply, hd, Ideal.div_coe hr0, one_mul]

/-- Every entry of the aggregate of a real array is a real number. -/
theorem aggr_isR {C : ℕ} (g : Fin E → Fin N) (S : Fin N → Finset (Fin E)) (x : (⟨2, ![N, C]⟩ : Shape).Idx → EReal)
    (hx : ∀ i, IsR (x i)) (i : (⟨2, ![N, C]⟩ : Shape).Idx) : IsR (aggr g S x i) :=
  IsR.zero.add (IsR.sum _ _ fun _ _ => hx _)

/-- The first layers of the two shapes are the same array. -/
theorem layer1_eq {K H : ℕ} (g : Fin E → Fin N) (S : Fin N → Finset (Fin E)) (x : (⟨2, ![N, K]⟩ : Shape).Idx → EReal)
    (wl wr : (⟨2, ![K, H]⟩ : Shape).Idx → EReal) (b : (⟨1, ![H]⟩ : Shape).Idx → EReal) :
    reluArr (layerR (meanAgg g S x) x wl wr b) = layer1K (aggr g S x) (invCol S) x wl wr (asRow b) := by
  funext i
  obtain ⟨p, c, rfl⟩ : ∃ (p : Fin N) (c : Fin H), i = ix2 p c := ⟨i 0, i 1, eq_ix2 i⟩
  obtain ⟨q, hq, hinv⟩ := exists_recip S p
  show max (layerR (meanAgg g S x) x wl wr b (ix2 p c)) 0 = _
  rw [layerR_apply, layer1K_apply, asRow_apply, hinv]
  simp only [meanAgg_apply, hq]
  rw [add_right_comm]

/-- Every entry of the first layer is a real number when the inputs are. -/
theorem layer1K_isR {K H : ℕ} (g : Fin E → Fin N) (S : Fin N → Finset (Fin E)) (x : (⟨2, ![N, K]⟩ : Shape).Idx → EReal)
    (wl wr : (⟨2, ![K, H]⟩ : Shape).Idx → EReal) (b : (⟨1, ![H]⟩ : Shape).Idx → EReal)
    (hx : ∀ i, IsR (x i)) (hwl : ∀ i, IsR (wl i)) (hwr : ∀ i, IsR (wr i)) (hb : ∀ i, IsR (b i))
    (i : (⟨2, ![N, H]⟩ : Shape).Idx) : IsR (layer1K (aggr g S x) (invCol S) x wl wr (asRow b) i) := by
  obtain ⟨p, c, rfl⟩ : ∃ (p : Fin N) (c : Fin H), i = ix2 p c := ⟨i 0, i 1, eq_ix2 i⟩
  obtain ⟨q, _, hinv⟩ := exists_recip S p
  rw [layer1K_apply, asRow_apply, hinv]
  refine IsR.max (IsR.add (IsR.add ?_ ?_) (hb _)) IsR.zero
  · exact IsR.sum _ _ fun k _ => ((aggr_isR g S x hx _).mul (IsR.coe q)).mul (hwl _)
  · exact IsR.sum _ _ fun k _ => (hx _).mul (hwr _)

/-- Over real numbers, the scaled sum over edges of the projected rows is the projection of the scaled sum of rows. -/
theorem scale_sum_proj {ι : Type*} {K : ℕ} (T : Finset ι) (f : ι → Fin K → ℝ) (w : Fin K → ℝ) (q : ℝ) :
    (0 + ∑ e ∈ T, ∑ k : Fin K, (f e k : EReal) * (w k : EReal)) * (q : EReal)
      = ∑ k : Fin K, ((0 + ∑ e ∈ T, (f e k : EReal)) * (q : EReal)) * (w k : EReal) := by
  simp only [zero_add, ← EReal.coe_mul, ← coe_sum]
  congr 1
  rw [Finset.sum_comm, Finset.sum_mul]
  refine Finset.sum_congr rfl fun k _ => ?_
  rw [← Finset.sum_mul]
  ring

/-- The second layers of the two shapes agree on a real array h and a real projection wl. -/
theorem layer2_eq {H O : ℕ} (g : Fin E → Fin N) (S : Fin N → Finset (Fin E)) (h : (⟨2, ![N, H]⟩ : Shape).Idx → EReal)
    (wl wr : (⟨2, ![H, O]⟩ : Shape).Idx → EReal) (b : (⟨1, ![O]⟩ : Shape).Idx → EReal)
    (hh : ∀ i, IsR (h i)) (hwl : ∀ i, IsR (wl i)) :
    layer2K (aggr g S (prodArr h wl)) (invCol S) h wr (asRow b) = layerR (meanAgg g S h) h wl wr b := by
  obtain ⟨h', rfl⟩ := exists_real_family h hh
  obtain ⟨wl', rfl⟩ := exists_real_family wl hwl
  funext i
  obtain ⟨p, c, rfl⟩ : ∃ (p : Fin N) (c : Fin O), i = ix2 p c := ⟨i 0, i 1, eq_ix2 i⟩
  obtain ⟨q, hq, hinv⟩ := exists_recip S p
  rw [layer2K_apply, layerR_apply, asRow_apply, hinv, aggr_apply]
  simp only [meanAgg_apply, aggr_apply, prodArr_apply, hq]
  rw [scale_sum_proj (S p) (fun e k => h' (ix2 (g e) k)) (fun k => wl' (ix2 k c)) q, add_right_comm]

/-- The two-layer network in the second shape is the two-layer network in the first shape, on real inputs. -/
theorem kernelOut_eq_refOut {N E K H O : ℕ} (g : Fin E → Fin N) (S : Fin N → Finset (Fin E))
    (x : (⟨2, ![N, K]⟩ : Shape).Idx → EReal) (wl1 wr1 : (⟨2, ![K, H]⟩ : Shape).Idx → EReal) (b1 : (⟨1, ![H]⟩ : Shape).Idx → EReal)
    (wl2 wr2 : (⟨2, ![H, O]⟩ : Shape).Idx → EReal) (b2 : (⟨1, ![O]⟩ : Shape).Idx → EReal)
    (hx : ∀ i, Cert.RealEntries.IsR (x i)) (hwl1 : ∀ i, Cert.RealEntries.IsR (wl1 i)) (hwr1 : ∀ i, Cert.RealEntries.IsR (wr1 i))
    (hb1 : ∀ i, Cert.RealEntries.IsR (b1 i)) (hwl2 : ∀ i, Cert.RealEntries.IsR (wl2 i)) (hwr2 : ∀ i, Cert.RealEntries.IsR (wr2 i))
    (hb2 : ∀ i, Cert.RealEntries.IsR (b2 i)) :
    kernelOut g S x wl1 wr1 b1 wl2 wr2 b2 = refOut g S x wl1 wr1 b1 wl2 wr2 b2 := by
  unfold kernelOut refOut
  rw [layer1_eq g S x wl1 wr1 b1]
  exact layer2_eq g S _ wl2 wr2 b2 (layer1K_isR g S x wl1 wr1 b1 hx hwl1 hwr1 hb1) hwl2

end Cert.Graph

end
-- ==== Proof.LibFiniteEntry.lean ====
/-
  FROM "EVERY ENTRY IS BELOW INFINITY IN ABSOLUTE VALUE" TO "EVERY ENTRY IS A REAL NUMBER", at the ideal values.

  A precondition that an array is finite is printed as: the absolute value of the array, compared entry by entry (ordered,
  less than) with the single-precision word of `+∞` broadcast from a scalar.  At the ideal values the absolute value of
  `x` is `max x (-x)`, the word `0x7F800000` is `⊤`, and an extended real whose absolute value is below `⊤` is neither `⊤`
  nor `⊥`: it is a real number.  No program appears in this module.
-/
import Idealize.ShloMosaic.PureOps.Ideal.Laws
import Idealize.ShloMosaic.Lib.ValueIdx
import Idealize.ShloMosaic.Lib.Pipeline.Value
import proofs.«120253_j59219009077768_2_alg».proof.Proof.LibRealEntries

noncomputable section

namespace Cert.FiniteEntry

open Idealize.ShloMosaic Idealize.ShloMosaic.ValueIdx Cert.RealEntries

/-- The single-precision pattern `0x7F800000` (sign 0, exponent all ones, fraction 0) denotes `+∞`. -/
theorem inf_word : Ideal.ofBits .f32 0x7F800000#32 = (⊤ : EReal) := by simp [Ideal.ofBits, Ideal.ieee]

/-- An extended real whose absolute value is below `⊤` is a real number. -/
theorem isR_of_abs_lt_top (x : EReal) (h : max x (-x) < ⊤) : IsR x := by
  induction x using EReal.rec with
  | bot => simp at h
  | coe r => exact ⟨r, rfl⟩
  | top => simp at h

/-- The printed comparison at an index. -/
theorem isR_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsR (x i) := by
  have h' : FloatOps.cmpf (F := Ideal) (φ := .f32) .olt (max (x i) (-(x i)))
      (broadcastInDim s ![] hb (constant (F := Ideal) ⟨0, ![]⟩ .f32 0x7F800000#32) i) = 1#1 := h
  rw [broadcastInDim_apply _ hb _ i ix0 (fun a => a.elim0)] at h'
  have h2 : FloatOps.cmpf (F := Ideal) (φ := .f32) .olt (max (x i) (-(x i))) (Ideal.ofBits .f32 0x7F800000#32) = 1#1 := h'
  rw [inf_word] at h2
  by_cases hlt : max (x i) (-(x i)) < (⊤ : EReal)
  · exact isR_of_abs_lt_top _ hlt
  · exfalso
    have h3 : BitVec.ofBool (decide (max (x i) (-(x i)) < (⊤ : EReal))) = 1#1 := h2
    rw [decide_eq_false hlt] at h3
    exact absurd h3 (by decide)

end Cert.FiniteEntry

end
-- ==== Proof.Finite.lean ====
/-
  FINITE INPUTS ARE REAL ENTRIES.

  The precondition is the conjunction, over the seven float arguments, of "every entry's absolute value is below +∞",
  each conjunct a reduction by "and" over all of an array's entries.  When the conjunction is one, every conjunct is
  one, every entry of each comparison is one, and an extended real whose absolute value is below +∞ is a real number.
-/
import proofs.«120253_j59219009077768_2_alg».proof.Pre_finite_inputs
import Idealize.ShloMosaic.Lib.ReduceAll
import proofs.«120253_j59219009077768_2_alg».proof.Proof.LibFiniteEntry

noncomputable section

namespace Cert.Pre_finite_inputs.Finite

open Cert.Pre_finite_inputs Cert.Pre_finite_inputs.Facts Idealize.ShloMosaic Cert.RealEntries Cert.FiniteEntry

variable [Facts]

/-- A rank-0 array has one index. -/
instance : Subsingleton S_.Idx := ⟨fun a b => funext fun d => d.elim0⟩

/-- Under the precondition every entry of every float argument is a real number. -/
theorem entries_real (x0 : FVec Ideal S100000x128 .f32) (x1 : IVec S2x1600000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (h : fn (F := Ideal) x0 x1 x2 x3 x4 x5 x6 x7 = fun _ => 1#1) :
    (∀ i, IsR (x0 i)) ∧ (∀ i, IsR (x2 i)) ∧ (∀ i, IsR (x3 i)) ∧ (∀ i, IsR (x4 i)) ∧ (∀ i, IsR (x5 i)) ∧ (∀ i, IsR (x6 i))
      ∧ (∀ i, IsR (x7 i)) := by
  have h0 := congrFun h ValueIdx.ix0
  dsimp only [fn, fn_part1] at h0
  obtain ⟨h6, e7⟩ := IntOp.andi_eq_one.mp h0
  obtain ⟨h5, e6⟩ := IntOp.andi_eq_one.mp h6
  obtain ⟨h4, e5⟩ := IntOp.andi_eq_one.mp h5
  obtain ⟨h3, e4⟩ := IntOp.andi_eq_one.mp h4
  obtain ⟨h2, e3⟩ := IntOp.andi_eq_one.mp h3
  obtain ⟨e0, e2⟩ := IntOp.andi_eq_one.mp h2
  exact ⟨fun i => isR_of_cmp x0 bcast_S_S100000x128 i (Host.reduce_andi_all _ _ _ _ ValueIdx.ix0 e0 i),
    fun i => isR_of_cmp x2 bcast_S_S128x128 i (Host.reduce_andi_all _ _ _ _ ValueIdx.ix0 e2 i),
    fun i => isR_of_cmp x3 bcast_S_S128 i (Host.reduce_andi_all _ _ _ _ ValueIdx.ix0 e3 i),
    fun i => isR_of_cmp x4 bcast_S_S128x128 i (Host.reduce_andi_all _ _ _ _ ValueIdx.ix0 e4 i),
    fun i => isR_of_cmp x5 bcast_S_S64x128 i (Host.reduce_andi_all _ _ _ _ ValueIdx.ix0 e5 i),
    fun i => isR_of_cmp x6 bcast_S_S64 i (Host.reduce_andi_all _ _ _ _ ValueIdx.ix0 e6 i),
    fun i => isR_of_cmp x7 bcast_S_S64x128 i (Host.reduce_andi_all _ _ _ _ ValueIdx.ix0 e7 i)⟩

end Cert.Pre_finite_inputs.Finite

end
-- ==== Proof.lean ====
/-
  A TWO-LAYER GRAPH NETWORK WITH MEAN AGGREGATION: the kernel against its reference, over the extended reals.

  Both programs gather the source rows of every edge, sum them into the destination nodes, and normalise by the node's
  degree (at least one); a layer is (mean aggregate) · Wlᵀ + b + (features) · Wrᵀ, the first layer rectified.  The
  reference divides the aggregate by the degree and adds the bias before the second product.  The kernel multiplies by
  the reciprocal degree (kept as a column), adds the bias last, and in the second layer projects the hidden rows through
  Wl2ᵀ BEFORE gathering and summing them.  The first difference is the meaning of division by a non-zero real; the
  second is commutativity of addition; the third moves a factor and a matrix product across a finite sum, which holds
  where the entries are real numbers — that is what the precondition (every float input finite) provides, through the
  hidden features, which are then real as well.

  The kernel's run names its result array by the contents of the last segment boundary (three regions among three
  stretches of host operations); each region's output array is a whole-array function of its entry contents; the
  reference's run names its result by its operations' composed term, read stage by stage.  Both results are then the
  same function of the arguments.  The idealization pass rewrote nothing, so the preservation claim is trivial.
-/
import proofs.«120253_j59219009077768_2_alg».proof.Defs
import proofs.«120253_j59219009077768_2_alg».proof.Proof.Gen.Kernel
import proofs.«120253_j59219009077768_2_alg».proof.Proof.Gen.Kernel.Skeleton
import proofs.«120253_j59219009077768_2_alg».proof.Proof.Gen.Kernel.Launch
import proofs.«120253_j59219009077768_2_alg».proof.Proof.Gen.Kernel.Points
import proofs.«120253_j59219009077768_2_alg».proof.Proof.Gen.Kernel.Frame
import proofs.«120253_j59219009077768_2_alg».proof.Proof.Gen.KernelIdeal
import proofs.«120253_j59219009077768_2_alg».proof.Proof.Gen.KernelIdeal.Skeleton
import proofs.«120253_j59219009077768_2_alg».proof.Proof.Gen.KernelIdeal.Launch
import proofs.«120253_j59219009077768_2_alg».proof.Proof.Gen.KernelIdeal.Points
import proofs.«120253_j59219009077768_2_alg».proof.Proof.Gen.KernelIdeal.Frame
import proofs.«120253_j59219009077768_2_alg».proof.Proof.Gen.ReferenceIdeal
import proofs.«120253_j59219009077768_2_alg».proof.Proof.Gen.Pre_finite_inputs
import proofs.«120253_j59219009077768_2_alg».proof.Proof.Gen.ReferenceIdeal.Run
import proofs.«120253_j59219009077768_2_alg».proof.Proof.Gen.ReferenceIdeal.Read
import proofs.«120253_j59219009077768_2_alg».proof.Proof.KernelNamed
import proofs.«120253_j59219009077768_2_alg».proof.Proof.KernelValue
import proofs.«120253_j59219009077768_2_alg».proof.Proof.RefValue
import proofs.«120253_j59219009077768_2_alg».proof.Proof.LibGraphBridge
import proofs.«120253_j59219009077768_2_alg».proof.Proof.Finite
import Idealize.ShloMosaic.Adequacy
import Idealize.ShloMosaic.Init

noncomputable section

namespace Cert.Proof

open Idealize.ShloMosaic Idealize.ShloMosaic.TcCoe Idealize.SL.Sem Cert.Graph

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Transposing keeps every entry real. -/
theorem tr_isR {a b : ℕ} (w : (⟨2, ![a, b]⟩ : Shape).Idx → EReal) (h : ∀ i, Cert.RealEntries.IsR (w i)) :
    ∀ i, Cert.RealEntries.IsR (tr w i) := fun i => h _

/-- The two results are one function of the arguments: the kernel's array is the second shape of the network, the
    reference's the first, and on finite inputs the two shapes agree. -/
theorem algebraic : Cert.algebraic_KernelIdeal_ReferenceIdeal := by
  intro m ρ m' ρ' hpre hagree
  refine ⟨fun c => kernelOut (Cert.KernelIdeal.Glue.gK m c) (Cert.KernelIdeal.Glue.sK m c) (m ((c.tc : Thread Cert.KernelIdeal.nD Cert.KernelIdeal.τ).loc Cert.KernelIdeal.main_arg0)) (tr (m ((c.tc : Thread Cert.KernelIdeal.nD Cert.KernelIdeal.τ).loc Cert.KernelIdeal.main_arg2))) (tr (m ((c.tc : Thread Cert.KernelIdeal.nD Cert.KernelIdeal.τ).loc Cert.KernelIdeal.main_arg4)))
      (m ((c.tc : Thread Cert.KernelIdeal.nD Cert.KernelIdeal.τ).loc Cert.KernelIdeal.main_arg3)) (tr (m ((c.tc : Thread Cert.KernelIdeal.nD Cert.KernelIdeal.τ).loc Cert.KernelIdeal.main_arg5))) (tr (m ((c.tc : Thread Cert.KernelIdeal.nD Cert.KernelIdeal.τ).loc Cert.KernelIdeal.main_arg7))) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h2, h3, h4, h5, h6, h7⟩ := Cert.Pre_finite_inputs.Finite.entries_real _ _ _ _ _ _ _ _ (hpre c)
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (kernelOut_eq_refOut _ _ _ _ _ _ _ _ _ h0 (tr_isR _ h2) (tr_isR _ h4) h3 (tr_isR _ h5) (tr_isR _ h7) h6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
